-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x4096 : Shape := ⟨3, ![32, 512, 4096]⟩
abbrev S256x512 : Shape := ⟨2, ![256, 512]⟩
abbrev S256 : Shape := ⟨1, ![256]⟩
abbrev S512x256 : Shape := ⟨2, ![512, 256]⟩
abbrev S512 : Shape := ⟨1, ![512]⟩
abbrev S_ : Shape := ⟨0, ![]⟩

class Facts : Prop where
  bcast_S_S32x512x4096 : S_.BroadcastsInDim S32x512x4096 (![] : Fin 0 → Fin S32x512x4096.rank)
  reducesTo_S32x512x4096_S_d0_1_2 : S32x512x4096.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S32x512x4096 .f32) (main_arg1 : FVec F S256x512 .f32) (main_arg2 : FVec F S256 .f32) (main_arg3 : FVec F S512x256 .f32) (main_arg4 : FVec F S512 .f32) : IVec S_ 1 :=
  let main_v0 : FVec F S32x512x4096 .f32 := Host.absf main_arg0
  let main_cst : FVec F S_ .f32 := constant S_ .f32 0x7F800000#32
  let main_v1 : FVec F S32x512x4096 .f32 := broadcastInDim S32x512x4096 ![] bcast_S_S32x512x4096 main_cst
  let main_v2 : IVec S32x512x4096 1 := cmpf .olt main_v0 main_v1
  let main_c : IVec S_ 1 := constantI S_ 1 1#1
  let main_v3 : IVec S_ 1 := (fun x v => Host.reduce IntOp.andi x v reducesTo_S32x512x4096_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_v13 main_v16
-- ==== Kernel.lean ====
abbrev S32x512x4096 : Shape := ⟨3, ![32, 512, 4096]⟩
abbrev S256x512 : Shape := ⟨2, ![256, 512]⟩
abbrev S256 : Shape := ⟨1, ![256]⟩
abbrev S512x256 : Shape := ⟨2, ![512, 256]⟩
abbrev S512 : Shape := ⟨1, ![512]⟩
abbrev S32x512 : Shape := ⟨2, ![32, 512]⟩
abbrev S8x128x1024 : Shape := ⟨3, ![8, 128, 1024]⟩
abbrev S8x128 : Shape := ⟨2, ![8, 128]⟩
abbrev S1x256 : Shape := ⟨2, ![1, 256]⟩
abbrev S1x512 : Shape := ⟨2, ![1, 512]⟩
abbrev S8x128x2048 : Shape := ⟨3, ![8, 128, 2048]⟩
abbrev S32x256 : Shape := ⟨2, ![32, 256]⟩
abbrev S8x128x1 : Shape := ⟨3, ![8, 128, 1]⟩

abbrev nBuf : Space → Nat
  | .hbm => 9
  | .vmem => 15
  | .smem => 0
  | _ => 0

abbrev bufTy : (tb : Table) → Fin (tcTables nBuf tb) → BufTy
  | .hbm, ⟨0, _⟩ => ⟨S32x512x4096, .f32⟩
  | .hbm, ⟨1, _⟩ => ⟨S256x512, .f32⟩
  | .hbm, ⟨2, _⟩ => ⟨S256, .f32⟩
  | .hbm, ⟨3, _⟩ => ⟨S512x256, .f32⟩
  | .hbm, ⟨4, _⟩ => ⟨S512, .f32⟩
  | .hbm, ⟨5, _⟩ => ⟨S32x512, .f32⟩
  | .hbm, ⟨6, _⟩ => ⟨S1x256, .f32⟩
  | .hbm, ⟨7, _⟩ => ⟨S1x512, .f32⟩
  | .hbm, ⟨8, _⟩ => ⟨S32x512x4096, .f32⟩
  | .local _ .vmem, ⟨0, _⟩ => ⟨S8x128x1024, .f32⟩
  | .local _ .vmem, ⟨1, _⟩ => ⟨S8x128x1024, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128x2048, .f32⟩
  | .local _ .vmem, ⟨6, _⟩ => ⟨S8x128x2048, .f32⟩
  | .local _ .vmem, ⟨7, _⟩ => ⟨S32x512, .f32⟩
  | .local _ .vmem, ⟨8, _⟩ => ⟨S256x512, .f32⟩
  | .local _ .vmem, ⟨9, _⟩ => ⟨S1x256, .f32⟩
  | .local _ .vmem, ⟨10, _⟩ => ⟨S512x256, .f32⟩
  | .local _ .vmem, ⟨11, _⟩ => ⟨S1x512, .f32⟩
  | .local _ .vmem, ⟨12, _⟩ => ⟨S8x128x2048, .f32⟩
  | .local _ .vmem, ⟨13, _⟩ => ⟨S8x128x2048, .f32⟩
  | .local _ .vmem, ⟨14, _⟩ => ⟨S32x512, .f32⟩
  | _, _ => ⟨S32x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem6_1 : DmaSem sig := 12

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev grid1 : Pipeline.Grid := ⟨3, ![4, 4, 2], ![false, false, false]⟩

def k1_mult1 (i : grid1.Coords) : BitVec 32 :=
  let arg0 : BitVec 32 := BitVec.ofNat 32 (i 0).val
  let c8_i32 : BitVec 32 := 8#32
  let v22 : BitVec 32 := Scalar.muli arg0 c8_i32
  v22
def k1_mult2 (i : grid1.Coords) : BitVec 32 :=
  let arg1 : BitVec 32 := BitVec.ofNat 32 (i 1).val
  let c128_i32 : BitVec 32 := 128#32
  let v24 : BitVec 32 := Scalar.muli arg1 c128_i32
  v24
def k1_off1 (i : grid1.Coords) : Fin 2 → Nat :=
  let arg0 : BitVec 32 := BitVec.ofNat 32 (i 0).val
  let c8_i32 : BitVec 32 := 8#32
  let v22 : BitVec 32 := Scalar.muli arg0 c8_i32
  let v23 : BitVec 32 := v22
  let v26 : Index := Scalar.indexCast v23
  let arg1 : BitVec 32 := BitVec.ofNat 32 (i 1).val
  let c128_i32 : BitVec 32 := 128#32
  let v24 : BitVec 32 := Scalar.muli arg1 c128_i32
  let v25 : BitVec 32 := v24
  let v27 : Index := Scalar.indexCast v25
  ![v26.toNat, v27.toNat]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S8x128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 1 → Memref sig .tc .vmem S32x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 1 → Memref sig .tc .vmem S256x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S512x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S8x128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, true]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x128x1024_S8x128x1024_0_0_0 : ∀ a, (![0, 0, 0] : Fin 3 → Nat) a + S8x128x1024.size a ≤ S8x128x1024.size a
  h_S8x128x1024 : 0 < S8x128x1024.numel
  reduces_S8x128x1024_S8x128 : S8x128x1024.Reduces [2] S8x128
  shapeCasts_S256_S1x256 : S256.ShapeCasts S1x256
  shapeCasts_S512_S1x512 : S512.ShapeCasts S1x512
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S256x512_S256x512_0_0 : ∀ a, (![0, 0] : Fin 2 → Nat) a + S256x512.size a ≤ S256x512.size a
  h_S256x512 : 0 < S256x512.numel
  transposes_S256x512_p1_0_S512x256 : S256x512.Transposes [1, 0] S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S32x256 : S1x256.Broadcasts S32x256
  inb_S512x256_S512x256_0_0 : ∀ a, (![0, 0] : Fin 2 → Nat) a + S512x256.size a ≤ S512x256.size a
  h_S512x256 : 0 < S512x256.numel
  transposes_S512x256_p1_0_S256x512 : S512x256.Transposes [1, 0] S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S32x512 : S1x512.Broadcasts S32x512
  inb_S8x128x2048_S8x128x2048_0_0_0 : ∀ a, (![0, 0, 0] : Fin 3 → Nat) a + S8x128x2048.size a ≤ S8x128x2048.size a
  h_S8x128x2048 : 0 < S8x128x2048.numel
  shapeCasts_S8x128_S8x128x1 : S8x128.ShapeCasts S8x128x1
  broadcasts_S8x128x1_S8x128x2048 : S8x128x1.Broadcasts S8x128x2048
  dot_S32x512_S512x256_S32x256_1_0_0_1_n_n_wf : DotDims.WF S32x512 S512x256 S32x256 [1] [0] [0] [1] [] []
  dot_S32x256_S256x512_S32x512_1_0_0_1_n_n_wf : DotDims.WF S32x256 S256x512 S32x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S32x512x4096.size a
  hwx0_0 : ∀ i : grid0.Coords, EltTy.bits .f32 = 32 ∨ (Rect.block (s := S32x512x4096) S8x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x512.size a
  hwx0_1 : ∀ i : grid0.Coords, EltTy.bits .f32 = 32 ∨ (Rect.block (s := S32x512) S8x128.size (cc0_transform_1 i) (hinb0_1 i)).WholeWords (EltTy.packing .f32)
  hrank1 : 0 < grid1.rank
  k1_mult1_dvd : ∀ i : grid1.Coords, 8 ∣ (k1_mult1 i).toNat
  k1_mult2_dvd : ∀ i : grid1.Coords, 128 ∣ (k1_mult2 i).toNat
  k1_off1_inb : ∀ i : grid1.Coords, ∀ a, (k1_off1 i) a + S8x128.size a ≤ S32x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x2048.size a ≤ S32x512x4096.size a
  hwx1_0 : ∀ i : grid1.Coords, EltTy.bits .f32 = 32 ∨ (Rect.block (s := S32x512x4096) S8x128x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x512.size a ≤ S32x512.size a
  hwx1_1 : ∀ i : grid1.Coords, EltTy.bits .f32 = 32 ∨ (Rect.block (s := S32x512) S32x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S256x512.size a
  hwx1_2 : ∀ i : grid1.Coords, EltTy.bits .f32 = 32 ∨ (Rect.block (s := S256x512) S256x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S512x256.size a
  hwx1_4 : ∀ i : grid1.Coords, EltTy.bits .f32 = 32 ∨ (Rect.block (s := S512x256) S512x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x128x2048.size a ≤ S32x512x4096.size a
  hwx1_6 : ∀ i : grid1.Coords, EltTy.bits .f32 = 32 ∨ (Rect.block (s := S32x512x4096) S8x128x2048.size (cc1_transform_6 i) (hinb1_6 i)).WholeWords (EltTy.packing .f32)

variable [Facts₀]

def dot_S32x512_S512x256_S32x256_1_0_0_1_n_n : DotDims S32x512 S512x256 S32x256 where
  lhsContracting := [1]
  rhsContracting := [0]
  lhsNonContracting := [0]
  rhsNonContracting := [1]
  lhsBatch := []
  rhsBatch := []
  wf := dot_S32x512_S512x256_S32x256_1_0_0_1_n_n_wf
def dot_S32x256_S256x512_S32x512_1_0_0_1_n_n : DotDims S32x256 S256x512 S32x512 where
  lhsContracting := [1]
  rhsContracting := [0]
  lhsNonContracting := [0]
  rhsNonContracting := [1]
  lhsBatch := []
  rhsBatch := []
  wf := dot_S32x256_S256x512_S32x512_1_0_0_1_n_n_wf

abbrev win0_0 : Pipeline.Window sig grid0 :=
  Pipeline.Window.ofSpec (Memref.whole main_arg0) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S8x128x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S32x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S256x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S512x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S8x128x2048.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S32x512x4096 : Shape := ⟨3, ![32, 512, 4096]⟩
abbrev S256x512 : Shape := ⟨2, ![256, 512]⟩
abbrev S256 : Shape := ⟨1, ![256]⟩
abbrev S512x256 : Shape := ⟨2, ![512, 256]⟩
abbrev S512 : Shape := ⟨1, ![512]⟩
abbrev S_ : Shape := ⟨0, ![]⟩
abbrev S32x512 : Shape := ⟨2, ![32, 512]⟩
abbrev S32x256 : Shape := ⟨2, ![32, 256]⟩
abbrev S1x256 : Shape := ⟨2, ![1, 256]⟩
abbrev S1x512 : Shape := ⟨2, ![1, 512]⟩
abbrev S32x512x1 : Shape := ⟨3, ![32, 512, 1]⟩

abbrev nBuf : Space → Nat
  | .hbm => 34
  | .vmem => 0
  | .smem => 0
  | _ => 0

abbrev bufTy : (tb : Table) → Fin (tcTables nBuf tb) → BufTy
  | .hbm, ⟨0, _⟩ => ⟨S32x512x4096, .f32⟩
  | .hbm, ⟨1, _⟩ => ⟨S256x512, .f32⟩
  | .hbm, ⟨2, _⟩ => ⟨S256, .f32⟩
  | .hbm, ⟨3, _⟩ => ⟨S512x256, .f32⟩
  | .hbm, ⟨4, _⟩ => ⟨S512, .f32⟩
  | .hbm, ⟨5, _⟩ => ⟨S_, .f32⟩
  | .hbm, ⟨6, _⟩ => ⟨S32x512, .f32⟩
  | .hbm, ⟨7, _⟩ => ⟨S_, .f32⟩
  | .hbm, ⟨8, _⟩ => ⟨S32x512, .f32⟩
  | .hbm, ⟨9, _⟩ => ⟨S32x512, .f32⟩
  | .hbm, ⟨10, _⟩ => ⟨S512x256, .f32⟩
  | .hbm, ⟨11, _⟩ => ⟨S32x256, .f32⟩
  | .hbm, ⟨12, _⟩ => ⟨S1x256, .f32⟩
  | .hbm, ⟨13, _⟩ => ⟨S32x256, .f32⟩
  | .hbm, ⟨14, _⟩ => ⟨S32x256, .f32⟩
  | .hbm, ⟨15, _⟩ => ⟨S_, .f32⟩
  | .hbm, ⟨16, _⟩ => ⟨S32x256, .f32⟩
  | .hbm, ⟨17, _⟩ => ⟨S32x256, .f32⟩
  | .hbm, ⟨18, _⟩ => ⟨S256x512, .f32⟩
  | .hbm, ⟨19, _⟩ => ⟨S32x512, .f32⟩
  | .hbm, ⟨20, _⟩ => ⟨S1x512, .f32⟩
  | .hbm, ⟨21, _⟩ => ⟨S32x512, .f32⟩
  | .hbm, ⟨22, _⟩ => ⟨S32x512, .f32⟩
  | .hbm, ⟨23, _⟩ => ⟨S32x512, .f32⟩
  | .hbm, ⟨24, _⟩ => ⟨S32x512, .f32⟩
  | .hbm, ⟨25, _⟩ => ⟨S_, .f32⟩
  | .hbm, ⟨26, _⟩ => ⟨S32x512, .f32⟩
  | .hbm, ⟨27, _⟩ => ⟨S32x512, .f32⟩
  | .hbm, ⟨28, _⟩ => ⟨S_, .f32⟩
  | .hbm, ⟨29, _⟩ => ⟨S32x512, .f32⟩
  | .hbm, ⟨30, _⟩ => ⟨S32x512, .f32⟩
  | .hbm, ⟨31, _⟩ => ⟨S32x512x1, .f32⟩
  | .hbm, ⟨32, _⟩ => ⟨S32x512x4096, .f32⟩
  | .hbm, ⟨33, _⟩ => ⟨S32x512x4096, .f32⟩
  | _, _ => ⟨S32x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  reducesTo_S32x512x4096_S32x512_d2 : S32x512x4096.ReducesTo [2] S32x512
  h_S_ : 0 < S_.numel
  bcast_S_S32x512 : S_.BroadcastsInDim S32x512 (![] : Fin 0 → Fin S32x512.rank)
  transposes_S256x512_S512x256_1_0 : S256x512.Transposes [1, 0] S512x256
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S_S32x256 : S_.BroadcastsInDim S32x256 (![] : Fin 0 → Fin S32x256.rank)
  transposes_S512x256_S256x512_1_0 : S512x256.Transposes [1, 0] S256x512
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S32x512_S32x512x1_0_1 : S32x512.BroadcastsInDim S32x512x1 (![0, 1] : Fin 2 → Fin S32x512x1.rank)
  bcast_S32x512x1_S32x512x4096_0_1_2 : S32x512x1.BroadcastsInDim S32x512x4096 (![0, 1, 2] : Fin 3 → Fin S32x512x4096.rank)
  dot_S32x512_S512x256_S32x256_1_0_0_1_n_n_wf : DotDims.WF S32x512 S512x256 S32x256 [1] [0] [0] [1] [] []
  dot_S32x256_S256x512_S32x512_1_0_0_1_n_n_wf : DotDims.WF S32x256 S256x512 S32x512 [1] [0] [0] [1] [] []

variable [Facts₀]

def dot_S32x512_S512x256_S32x256_1_0_0_1_n_n : DotDims S32x512 S512x256 S32x256 where
  lhsContracting := [1]
  rhsContracting := [0]
  lhsNonContracting := [0]
  rhsNonContracting := [1]
  lhsBatch := []
  rhsBatch := []
  wf := dot_S32x512_S512x256_S32x256_1_0_0_1_n_n_wf
def dot_S32x256_S256x512_S32x512_1_0_0_1_n_n : DotDims S32x256 S256x512 S32x512 where
  lhsContracting := [1]
  rhsContracting := [0]
  lhsNonContracting := [0]
  rhsNonContracting := [1]
  lhsBatch := []
  rhsBatch := []
  wf := dot_S32x256_S256x512_S32x512_1_0_0_1_n_n_wf

class Facts : Prop extends Facts₀ where

variable [Facts]
-- ==== Proof.Pool.lean ====
/-
  The pooling kernel (the first of the program's two kernel regions), point by point, for any float instance.

  Its grid is 4 × 4 × 4; the last coordinate runs over the four tiles of 1024 entries of the axis that is summed, so
  point `t` is the `t % 4`-th tile of its (batch block, channel block). The body keeps an accumulator in a scratch
  buffer between points: at the first tile it is reset to the zero splat and the tile's lane sums are added, at the
  middle tiles the lane sums are added to what the point before left, and at the last tile the sum, times the mean's
  factor, is also stored into the output block — the only points at which that block is written back.
  Here: the body's triple in each of these three cases; what the scratch holds after each point, by recursion on the
  point (`acc0`); the region invariant that carries it; the proof data of the pipeline and its body obligation.
-/
import proofs.«151959_j1752346657530_2_alg».proof.Proof.Gen.KernelIdeal.Launch
import proofs.«151959_j1752346657530_2_alg».proof.Proof.Gen.KernelIdeal.Skeleton
import proofs.«151959_j1752346657530_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Rectangles at offset zero -/

theorem hz2 : (![0, 0] : Fin 2 → Nat) = fun _ => 0 := funext fun a => by fin_cases a <;> rfl
theorem hz3 : (![0, 0, 0] : Fin 3 → Nat) = fun _ => 0 := funext fun a => by fin_cases a <;> rfl

/-- A store through the whole-shape rectangle, last, leaves its payload whatever the buffer held and whatever the
    earlier stores were. -/
theorem read_writes_cons_unit_zero {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self .., by
    show y ∈ (Rect.whole S).set; rw [Rect.set_whole]; exact Finset.mem_univ y⟩)]
  exact View.canon_cons_unit_zero rfl _ w L

/-! ## The body's two conditions, decided over the grid -/

/-- "This is the first tile": the body's first `scf.if`, as its scalar chain computes it from the grid coordinates. -/
abbrev isFirst (i : grid0.Coords) : Prop := (Scalar.cmpi .ne (Scalar.extui (Scalar.cmpi .eq (BitVec.ofNat 32 (i 2).val) 0#32)) 0#32) = 1#1
/-- "This is the last tile": its second. -/
abbrev isLast (i : grid0.Coords) : Prop := k0_cond2 i = 1#1

theorem isFirst_iff : ∀ t : Fin cfg0.N, isFirst (grid0.coords t) ↔ t.val % 4 = 0 :=
  (by decide +kernel : ∀ t : Fin grid0.N, isFirst (grid0.coords t) ↔ t.val % 4 = 0)
theorem isLast_iff : ∀ t : Fin cfg0.N, isLast (grid0.coords t) ↔ t.val % 4 = 3 :=
  (by decide +kernel : ∀ t : Fin grid0.N, isLast (grid0.coords t) ↔ t.val % 4 = 3)

/-- The input window is never idle; the output window is idle, and not written back, exactly off the last tile. -/
theorem live0_0 : ∀ t : Fin cfg0.N, cfg0.idle 0 (grid0.coords t) = false := by decide +kernel
theorem idle0_1 : ∀ t : Fin cfg0.N, ¬isLast (grid0.coords t) → cfg0.idle 1 (grid0.coords t) = true := by decide +kernel
theorem noFlush0_1 : ∀ t : Fin cfg0.N, ¬isLast (grid0.coords t) → (cfg0.win 1).flush t = false := by decide +kernel
theorem live0_1 : ∀ t : Fin cfg0.N, isLast (grid0.coords t) → cfg0.idle 1 (grid0.coords t) = false := by decide +kernel

/-! ## The body's triple, case by case -/

set_option maxHeartbeats 1000000 in
/-- FIRST tile: whatever the scratch held, it ends at the zero splat plus the tile's lane sums; the output block is
    handed back untouched. -/
theorem pool_first (c : Dev nD) (i : grid0.Coords) (arg3 : Memref sig .tc .vmem S8x128x1024 .f32) (harg3 : arg3.IsWhole) (arg4 : Memref sig .tc .vmem S8x128 .f32) (harg4 : arg4.IsWhole) (arg5 : Memref sig .tc .vmem S8x128 .f32) (harg5 : arg5.IsWhole)
    (hc0 : isFirst i) (hc1 : ¬isLast i) (x0 : Vec F S8x128x1024 .f32) (xi1 : Vec F S8x128 .f32) (E : Set ℕ) (K : PUnit → sProp 𝕄) :
    iprop(owns (c : Thread nD τ) arg3 fullShare x0 ∗ owns (c : Thread nD τ) arg4 fullShare xi1 ∗ (∃ d, owns (c : Thread nD τ) arg5 fullShare d)
        ∗ (iprop(owns (c : Thread nD τ) arg3 fullShare x0 ∗ owns (c : Thread nD τ) arg4 fullShare xi1 ∗ owns (c : Thread nD τ) arg5 fullShare (k0_pay2 (k0_pay1 (F := F)) x0)) -∗ K ⟨⟩))
      ⊢ wp frame (wpE (defs₀ (F := F)) Variants.none c none) E (cc0__pool_kernel i arg3 harg3 arg4 harg4 arg5 harg5) K := by
  simp only [cc0__pool_kernel_eq_skeleton]; unfold cc0__pool_kernel_skel
  unfold owns
  iintro ⟨⟨%f0, %hf0, H0⟩, ⟨%f1, %hf1, H1⟩, ⟨%ds0, %fs0, -, HS0⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_run_names
  rw [read_writes_cons_unit_zero _ _ hz2]
  simp only [View.readCov_unit_zero (S := S8x128) arg5.view hz2, View.readAt_eq_ld, harg3.read_unread, View.ld_unit_zero (S := S8x128x1024) hz3]

set_option maxHeartbeats 1000000 in
/-- A MIDDLE tile: the scratch, at what the point before left, ends at that plus the tile's lane sums; the output
    block is handed back untouched. -/
theorem pool_mid (c : Dev nD) (i : grid0.Coords) (arg3 : Memref sig .tc .vmem S8x128x1024 .f32) (harg3 : arg3.IsWhole) (arg4 : Memref sig .tc .vmem S8x128 .f32) (harg4 : arg4.IsWhole) (arg5 : Memref sig .tc .vmem S8x128 .f32) (harg5 : arg5.IsWhole)
    (hc0 : ¬isFirst i) (hc1 : ¬isLast i) (x0 : Vec F S8x128x1024 .f32) (xs0 : Vec F S8x128 .f32) (xi1 : Vec F S8x128 .f32) (E : Set ℕ) (K : PUnit → sProp 𝕄) :
    iprop(owns (c : Thread nD τ) arg3 fullShare x0 ∗ owns (c : Thread nD τ) arg4 fullShare xi1 ∗ owns (c : Thread nD τ) arg5 fullShare xs0
        ∗ (iprop(owns (c : Thread nD τ) arg3 fullShare x0 ∗ owns (c : Thread nD τ) arg4 fullShare xi1 ∗ owns (c : Thread nD τ) arg5 fullShare (k0_pay2 xs0 x0)) -∗ K ⟨⟩))
      ⊢ wp frame (wpE (defs₀ (F := F)) Variants.none c none) E (cc0__pool_kernel i arg3 harg3 arg4 harg4 arg5 harg5) K := by
  simp only [cc0__pool_kernel_eq_skeleton]; unfold cc0__pool_kernel_skel
  unfold owns
  iintro ⟨⟨%f0, %hf0, H0⟩, ⟨%f1, %hf1, H1⟩, ⟨%fs0, %hfs0, HS0⟩, Hk⟩
  obtain rfl := harg3.eq_unread hf0; obtain rfl := harg4.eq_unread hf1; obtain rfl := harg5.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_run_names
  rw [read_writes_cons_unit_zero _ _ hz2]
  simp only [View.readAt_eq_ld, harg3.read_unread, harg5.read_unread, View.ld_unit_zero (S := S8x128) hz2, View.ld_unit_zero (S := S8x128x1024) hz3]

set_option maxHeartbeats 1000000 in
/-- The LAST tile: the scratch ends as at a middle tile, and the output block at that sum times the mean's factor. -/
theorem pool_last (c : Dev nD) (i : grid0.Coords) (arg3 : Memref sig .tc .vmem S8x128x1024 .f32) (harg3 : arg3.IsWhole) (arg4 : Memref sig .tc .vmem S8x128 .f32) (harg4 : arg4.IsWhole) (arg5 : Memref sig .tc .vmem S8x128 .f32) (harg5 : arg5.IsWhole)
    (hc0 : ¬isFirst i) (hc1 : isLast i) (x0 : Vec F S8x128x1024 .f32) (xs0 : Vec F S8x128 .f32) (E : Set ℕ) (K : PUnit → sProp 𝕄) :
    iprop(owns (c : Thread nD τ) arg3 fullShare x0 ∗ (∃ d, owns (c : Thread nD τ) arg4 fullShare d) ∗ owns (c : Thread nD τ) arg5 fullShare xs0
        ∗ (iprop(owns (c : Thread nD τ) arg3 fullShare x0 ∗ owns (c : Thread nD τ) arg4 fullShare (k0_pay3 (k0_pay2 xs0 x0)) ∗ owns (c : Thread nD τ) arg5 fullShare (k0_pay2 xs0 x0)) -∗ K ⟨⟩))
      ⊢ wp frame (wpE (defs₀ (F := F)) Variants.none c none) E (cc0__pool_kernel i arg3 harg3 arg4 harg4 arg5 harg5) K := by
  simp only [cc0__pool_kernel_eq_skeleton]; unfold cc0__pool_kernel_skel
  unfold owns
  iintro ⟨⟨%f0, %hf0, H0⟩, ⟨%d1, %f1, -, H1⟩, ⟨%fs0, %hfs0, HS0⟩, Hk⟩
  obtain rfl := harg3.eq_unread hf0; obtain rfl := harg5.eq_unread hfs0
  sl_exec (disch := first | exact hc0 | exact hc1)
  sl_step
  iapply Hk
  isplitl [H0]
  · iexists _; isplitr; · ipureintro; exact harg3.read_unread _
    iexact H0
  isplitl [H1]
  · iexists _; isplitr
    swap; · iexact H1
    ipureintro
    sl_unfold_run_names
    rw [read_writes_cons_unit_zero _ _ hz2]
    simp only [View.readCov_unit_zero (S := S8x128) arg5.view hz2, View.readAt_eq_ld, harg3.read_unread, harg5.read_unread, View.ld_unit_zero (S := S8x128) hz2, View.ld_unit_zero (S := S8x128x1024) hz3]
  iexists _; isplitr
  swap; · iexact HS0
  ipureintro
  sl_unfold_run_names
  rw [read_writes_cons_unit_zero _ _ hz2]
  simp only [View.readAt_eq_ld, harg3.read_unread, harg5.read_unread, View.ld_unit_zero (S := S8x128) hz2, View.ld_unit_zero (S := S8x128x1024) hz3]

end Cert.KernelIdeal.Hand

end
-- ==== Proof.PoolData.lean ====
/-
  The pooling region's proof data, for any float instance, at a parameter `V`: the buffer contents the region is
  entered from.

  After point `n` the scratch accumulator holds the lane sums of the tiles met so far in `n`'s group of four
  (`acc0`, by recursion on the point: reset at the first tile of a group, added to otherwise); the output block of a
  group's last point holds that sum times the mean's factor. The region invariant carries the scratch at `acc0` from
  one point to the next, beside the other region's scoped buffers (untouched) and the generator register.
-/
import proofs.«151959_j1752346657530_2_alg».proof.Proof.Gen.KernelIdeal.Launch
import proofs.«151959_j1752346657530_2_alg».proof.Proof.Gen.KernelIdeal.Skeleton
import proofs.«151959_j1752346657530_2_alg».proof.Proof.Gen.KernelIdeal.Points
import proofs.«151959_j1752346657530_2_alg».proof.Proof.Pool
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator, point by point -/

/-- The scratch operand: a whole scoped buffer of the kernel's own. -/
abbrev scM0 : Memref sig .tc .vmem S8x128 .f32 := Memref.whole cc0_scratch0

/-- What the scratch holds after the body at position `n`: at the first tile of a group of four the zero splat plus
    the tile's lane sums, otherwise what the point before left plus the tile's lane sums. -/
def acc0 (c : Dev nD) : (n : ℕ) → n < cfg0.N → Vec F S8x128 .f32
  | 0, hn => k0_pay2 (k0_pay1 (F := F)) (iblk0 V c 0 ⟨0, hn⟩)
  | n + 1, hn =>
    if (n + 1) % 4 = 0 then k0_pay2 (k0_pay1 (F := F)) (iblk0 V c 0 ⟨n + 1, hn⟩)
    else k0_pay2 (acc0 c n (Nat.lt_of_succ_lt hn)) (iblk0 V c 0 ⟨n + 1, hn⟩)

theorem acc0_first (c : Dev nD) (t : Fin cfg0.N) (h : t.val % 4 = 0) :
    acc0 V c t.val t.isLt = k0_pay2 (k0_pay1 (F := F)) (iblk0 V c 0 t) := by
  obtain ⟨n, hn⟩ := t
  cases n with
  | zero => rfl
  | succ n => exact if_pos h

theorem acc0_next (c : Dev nD) (t : Fin cfg0.N) (h : ¬t.val % 4 = 0) :
    acc0 V c t.val t.isLt = k0_pay2 (acc0 V c (t.val - 1) (Nat.lt_of_le_of_lt (Nat.sub_le _ _) t.isLt)) (iblk0 V c 0 t) := by
  obtain ⟨n, hn⟩ := t
  cases n with
  | zero => exact absurd (Nat.zero_mod _) h
  | succ n => exact if_neg h

/-! ## The region invariant -/

/-- The scoped buffers of the other region, each whole at some contents: they ride along untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- The class's invariant with the scratch operand as a memref owned at some contents. -/
theorem PhiA0_eq (c : Dev nD) :
    (Pipeline.ΦA spec0 c : sProp 𝕄)
      = iprop(((∃ d, owns (c : Thread nD τ) scM0 fullShare d) ∗ others0 c) ∗ (∃ r, prngReg c r)) := by
  unfold Pipeline.ΦA others0; rw [scopedRest0_eq]; simp only [scM0, owns_whole]; try rfl

/-- The invariant before position `n`: before the first point the scratch at anything; afterwards at what the point
    before left in it. -/
def PhiS (c : Dev nD) : (n : ℕ) → n ≤ cfg0.N → sProp 𝕄
  | 0, _ => Pipeline.ΦA spec0 c
  | n + 1, hn => iprop((owns (c : Thread nD τ) scM0 fullShare (acc0 V c n hn) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM0 fullShare (acc0 V c n hn) ∗ others0 c) ∗ (∃ r, prngReg c r)) := rfl

theorem PhiS_pos (c : Dev nD) (n : ℕ) (h : n ≤ cfg0.N) (hz : n ≠ 0) :
    PhiS V c n h = iprop((owns (c : Thread nD τ) scM0 fullShare (acc0 V c (n - 1) (by omega)) ∗ others0 c) ∗ (∃ r, prngReg c r)) := by
  cases n with
  | zero => exact absurd rfl hz
  | succ n => rfl

/-! ## The pipeline's proof data -/

/-- The arrays as the region finds them; after the body at point `t` the input's buffer at its block and the output's at
    the accumulated sum times the mean's factor; the invariant carrying the scratch; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay3 (acc0 V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = k0_pay3 (acc0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds its block; the point's position in its group of four says which
    case it is in; the invariant hands the body the scratch at what the point before left (at anything at the very
    first point) and takes it back at this point's contents; the output block is stored at a group's last point and
    handed back untouched elsewhere; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [live0_0 t], after0_0]
  have hN : t.val < 64 := lt_of_lt_of_eq t.isLt (show cfg0.N = 64 from N_0)
  by_cases h1 : t.val % 4 = 3
  · have h0 : ¬t.val % 4 = 0 := by omega
    have hz : t.val ≠ 0 := by omega
    rw [show (dat0 V c).leavesExact 1 t = owns (c : Thread nD τ) (st0_1 t) fullShare ((dat0 V c).after 1 t) from by
      unfold Dat.leavesExact; rw [live0_1 t ((isLast_iff t).mpr h1)], after0_1]
    rw [acc0_next V c t h0, PhiS_castSucc V c t, PhiS_pos V c _ _ hz]
    iintro ⟨⟨⟨HS0, Hoth⟩, Hg⟩, Ho, ⟨%d0, H0⟩, ⟨%d1, H1⟩⟩
    iapply (pool_last c (grid0.coords t) _ _ _ _ _ _ (fun h => h0 ((isFirst_iff t).mp h)) ((isLast_iff t).mpr h1) (iblk0 V c 0 t) _ Set.univ _)
    isplitl [H0]; · iexact H0
    isplitl [H1]; · iexists _; iexact H1
    isplitl [HS0]; · iexact HS0
    iintro ⟨H0, H1, HS0⟩
    isplitl [HS0 Hoth Hg]
    · isplitl [HS0 Hoth]
      · isplitl [HS0]; · iexact HS0
        iexact Hoth
      iexact Hg
    isplitl [Ho]; · iexact Ho
    isplitl [H0]; · iexact H0
    iexact H1
  · rw [Dat.leavesExact_idle (dat0 V c) 1 t (idle0_1 t (fun h => h1 ((isLast_iff t).mp h))) (noFlush0_1 t (fun h => h1 ((isLast_iff t).mp h)))]
    by_cases h0 : t.val % 4 = 0
    · rw [acc0_first V c t h0]
      by_cases hz : t.val = 0
      · rw [PhiS_castSucc V c t, PhiS_zero V c _ _ hz, PhiA0_eq]
        iintro ⟨⟨⟨HS0, Hoth⟩, Hg⟩, Ho, ⟨%d0, H0⟩, ⟨%d1, H1⟩⟩
        iapply (pool_first c (grid0.coords t) _ _ _ _ _ _ ((isFirst_iff t).mpr h0) (fun h => h1 ((isLast_iff t).mp h)) (iblk0 V c 0 t) _ Set.univ _)
        isplitl [H0]; · iexact H0
        isplitl [H1]; · iexact H1
        isplitl [HS0]; · iexact HS0
        iintro ⟨H0, H1, HS0⟩
        isplitl [HS0 Hoth Hg]
        · isplitl [HS0 Hoth]
          · isplitl [HS0]; · iexact HS0
            iexact Hoth
          iexact Hg
        isplitl [Ho]; · iexact Ho
        isplitl [H0]; · iexact H0
        iexists _; iexact H1
      · rw [PhiS_castSucc V c t, PhiS_pos V c _ _ hz]
        iintro ⟨⟨⟨HS0, Hoth⟩, Hg⟩, Ho, ⟨%d0, H0⟩, ⟨%d1, H1⟩⟩
        iapply (pool_first c (grid0.coords t) _ _ _ _ _ _ ((isFirst_iff t).mpr h0) (fun h => h1 ((isLast_iff t).mp h)) (iblk0 V c 0 t) _ Set.univ _)
        isplitl [H0]; · iexact H0
        isplitl [H1]; · iexact H1
        isplitl [HS0]; · iexists _; iexact HS0
        iintro ⟨H0, H1, HS0⟩
        isplitl [HS0 Hoth Hg]
        · isplitl [HS0 Hoth]
          · isplitl [HS0]; · iexact HS0
            iexact Hoth
          iexact Hg
        isplitl [Ho]; · iexact Ho
        isplitl [H0]; · iexact H0
        iexists _; iexact H1
    · have hz : t.val ≠ 0 := fun e => h0 (by rw [e])
      rw [acc0_next V c t h0, PhiS_castSucc V c t, PhiS_pos V c _ _ hz]
      iintro ⟨⟨⟨HS0, Hoth⟩, Hg⟩, Ho, ⟨%d0, H0⟩, ⟨%d1, H1⟩⟩
      iapply (pool_mid c (grid0.coords t) _ _ _ _ _ _ (fun h => h0 ((isFirst_iff t).mp h)) (fun h => h1 ((isLast_iff t).mp h)) (iblk0 V c 0 t) _ _ Set.univ _)
      isplitl [H0]; · iexact H0
      isplitl [H1]; · iexact H1
      isplitl [HS0]; · iexact HS0
      iintro ⟨H0, H1, HS0⟩
      isplitl [HS0 Hoth Hg]
      · isplitl [HS0 Hoth]
        · isplitl [HS0]; · iexact HS0
          iexact Hoth
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point, -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- and after the last point the invariant gives it back, the scratch's contents forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ hne, PhiA0_eq]
  iintro ⟨⟨HS0, Hoth⟩, Hg⟩
  isplitl [HS0 Hoth]
  · isplitl [HS0]; · iexists _; iexact HS0
    iexact Hoth
  iexact Hg

end Region

end Cert.KernelIdeal.Hand

end
-- ==== Proof.Scale.lean ====
/-
  The scaling kernel (the second of the program's two kernel regions), at one grid point, for any float instance.

  Its grid is 4 × 4 × 2: a block of 8 batch entries × 128 channels × 2048 positions of the input per point. Beside that
  block the body is handed, whole, the matrix of means the first region produced, the two weight matrices and the two
  biases (as rows). At EVERY point it recomputes the whole 32 × 512 gate matrix from them into a scratch buffer, reads
  back the 8 × 128 block of gates of its batch and channel blocks, and stores the input block times those gates,
  broadcast along the positions. Nothing is kept between points: the scratch is overwritten whole before it is read.
-/
import proofs.«151959_j1752346657530_2_alg».proof.Proof.Gen.KernelIdeal.Launch
import proofs.«151959_j1752346657530_2_alg».proof.Proof.Gen.KernelIdeal.Skeleton
import proofs.«151959_j1752346657530_2_alg».proof.Proof.Gen.KernelIdeal.Points
import proofs.«151959_j1752346657530_2_alg».proof.Proof.Pool
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's triple -/

/-- The 8 × 128 block of the gate matrix that point `i` reads back: rows `8 · i₀ …`, columns `128 · i₁ …`. -/
abbrev gateRect (i : grid1.Coords) : Rect S32x512 := Rect.unit (s := S32x512) (k1_off1 i) S8x128.size (k1_off1_inb i)

set_option maxHeartbeats 2000000 in
/-- On whole staging memrefs — the six inputs at their contents, the output block and the scratch at anything — the body
    runs to the continuation holding the inputs as they were, the output block at the input block times the gates of
    its rows and channels, the scratch at some contents. -/
theorem scale_body (c : Dev nD) (i : grid1.Coords) (arg3 : Memref sig .tc .vmem S8x128x2048 .f32) (harg3 : arg3.IsWhole) (arg4 : Memref sig .tc .vmem S32x512 .f32) (harg4 : arg4.IsWhole) (arg5 : Memref sig .tc .vmem S256x512 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S1x512 .f32) (harg8 : arg8.IsWhole) (arg9 : Memref sig .tc .vmem S8x128x2048 .f32) (harg9 : arg9.IsWhole) (arg10 : Memref sig .tc .vmem S32x512 .f32) (harg10 : arg10.IsWhole)
    (x0 : Vec F S8x128x2048 .f32) (x1 : Vec F S32x512 .f32) (x2 : Vec F S256x512 .f32) (x3 : Vec F S1x256 .f32) (x4 : Vec F S512x256 .f32) (x5 : Vec F S1x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
        ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ owns (c : Thread nD τ) arg9 fullShare (k1_pay2 (View.ld (k1_pay1 x1 x2 x3 x4 x5) (gateRect i)) x0)
            ∗ (∃ d, owns (c : Thread nD τ) arg10 fullShare d)) -∗ K ⟨⟩))
      ⊢ wp frame (wpE (defs₀ (F := F)) Variants.none c none) E (cc1__scale_kernel i arg3 harg3 arg4 harg4 arg5 harg5 arg6 harg6 arg7 harg7 arg8 harg8 arg9 harg9 arg10 harg10) K := by
  simp only [cc1__scale_kernel_eq_skeleton]; unfold cc1__scale_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr
    swap; · iexact H6
    ipureintro
    sl_unfold_run_names
    rw [read_writes_cons_unit_zero _ _ hz3]
    simp only [View.readAt_eq_ld, read_writes_cons_unit_zero (S := S32x512) arg10.view arg10.view.junk hz2, harg3.read_unread, harg4.read_unread, harg5.read_unread, harg6.read_unread, harg7.read_unread, harg8.read_unread,
      View.ld_unit_zero (S := S32x512) hz2, View.ld_unit_zero (S := S256x512) hz2, View.ld_unit_zero (S := S1x256) hz2, View.ld_unit_zero (S := S512x256) hz2, View.ld_unit_zero (S := S1x512) hz2, View.ld_unit_zero (S := S8x128x2048) hz3]
  iexists _; iexists _; isplitr
  swap; · iexact H7
  ipureintro; rfl

end Cert.KernelIdeal.Hand

end
-- ==== Proof.ScaleData.lean ====
/-
  The scaling region's proof data, for any float instance, at a parameter `V`: the buffer contents the region is
  entered from (after the first region and the two reshapes of the biases into rows).

  Every input window's staging buffer holds its block at every point — the input's block moves with the point, the
  five whole-array windows (the means, the weights, the bias rows) are fetched once and never move —, and the output
  block after the body is the input block times the gates of its rows and channels (`out1`). The region keeps nothing
  between points: its invariant is the scoped buffers it does not stage, each at some contents, and the generator
  register; the gate scratch is taken out of it and put back at every point.
-/
import proofs.«151959_j1752346657530_2_alg».proof.Proof.Gen.KernelIdeal.Launch
import proofs.«151959_j1752346657530_2_alg».proof.Proof.Gen.KernelIdeal.Skeleton
import proofs.«151959_j1752346657530_2_alg».proof.Proof.Gen.KernelIdeal.Points
import proofs.«151959_j1752346657530_2_alg».proof.Proof.Scale
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output block -/

/-- The scratch operand: a whole scoped buffer of the kernel's own. -/
abbrev scM1 : Memref sig .tc .vmem S32x512 .f32 := Memref.whole cc1_scratch0

/-- The output block after the body at point `t`: the input block times the 8 × 128 block, at the point's rows and
    channels, of the gate matrix computed from the means, the weights and the bias rows. -/
def out1 (c : Dev nD) (t : Fin cfg1.N) : Vec F S8x128x2048 .f32 :=
  k1_pay2 (View.ld (k1_pay1 (iblk1 V c 1 t) (iblk1 V c 2 t) (iblk1 V c 3 t) (iblk1 V c 4 t) (iblk1 V c 5 t)) (gateRect (grid1.coords t))) (iblk1 V c 0 t)

/-- The class's invariant with the scratch operand as a memref owned at some contents (it is the last of the scoped
    buffers the region does not stage; the others are the first region's). -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4800000 in
/-- The body at any point: the inputs' memrefs hold their blocks, so the body's triple applies; the invariant lends the
    scratch and takes it back; the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  rw [show (dat1 V c).Φ t.castSucc = Pipeline.ΦA spec1 c from rfl, PhiA1_eq]
  iintro ⟨⟨⟨Ha, Hb, Hc, Hd, He, HS⟩, Hg⟩, Ho, ⟨%d0, H0⟩, ⟨%d1, H1⟩, ⟨%d2, H2⟩, ⟨%d3, H3⟩, ⟨%d4, H4⟩, ⟨%d5, H5⟩, ⟨%d6, H6⟩⟩
  iapply (scale_body c (grid1.coords t) _ _ _ _ _ _ _ _ _ _ _ _ _ _ _ _ (iblk1 V c 0 t) (iblk1 V c 1 t) (iblk1 V c 2 t) (iblk1 V c 3 t) (iblk1 V c 4 t) (iblk1 V c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, H6, HS⟩
  isplitl [Ha Hb Hc Hd He HS Hg]
  · isplitl [Ha Hb Hc Hd He HS]
    · isplitl [Ha]; · iexact Ha
      isplitl [Hb]; · iexact Hb
      isplitl [Hc]; · iexact Hc
      isplitl [Hd]; · iexact Hd
      isplitl [He]; · iexact He
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.Run.lean ====
/-
  The whole run of the program, for any float instance: @main is the pooling region, two reshapes of the biases into
  rows on the host, and the scaling region.

  The buffer contents at each boundary are a fold from the launch memory: after a region, its arrays hold what the
  pipeline's write-backs leave (the inputs as entered, the output's blocks folded in) and every other buffer is as
  entered; after the host stretch, the reshapes' results are written. Each region is entered from "every unscoped
  buffer at the boundary's contents, the generator register at some state, nothing owed" and left in the same form,
  so the segments chain. The run's post says that every unscoped buffer ends at the last boundary's contents: the
  argument arrays read back through the fold to the launch memory, and the result array is what the scaling region's
  write-backs leave.
-/
import proofs.«151959_j1752346657530_2_alg».proof.Proof.Gen.KernelIdeal.Launch
import proofs.«151959_j1752346657530_2_alg».proof.Proof.Gen.KernelIdeal.Skeleton
import proofs.«151959_j1752346657530_2_alg».proof.Proof.Gen.KernelIdeal.Points
import proofs.«151959_j1752346657530_2_alg».proof.Proof.Gen.KernelIdeal.Regions
import proofs.«151959_j1752346657530_2_alg».proof.Proof.PoolData
import proofs.«151959_j1752346657530_2_alg».proof.Proof.ScaleData
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (the pooling region's entry). -/
abbrev W0 : Dev nD → Valuation τ sig (Elt F) := fun c b => m ((c : Dev nD), b)
/-- The same read at the TensorCore's references (what the pooling region's proof data take). -/
abbrev Ve0 : (c : Dev nD) → (b : Ref sig .tc) → Buf (Elt F) ((c : Thread nD τ).loc b) := fun c b => W0 m c b

/-- At the pooling region's exit: its arrays at what the pipeline leaves, every other buffer as entered. -/
def W1 (c : Dev nD) : Valuation τ sig (Elt F) :=
  Pipeline.withArrays spec0 c (W0 m c) fun w => (dat0 (Ve0 m) c).arrAt w cfg0.N
theorem W1_arr (c : Dev nD) (w : Fin cfg0.W) :
    W1 m c (Proc.devRef .tc (Pipeline.arrRef spec0 w)) = (dat0 (Ve0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vx0 : (c : Dev nD) → (b : Ref sig .tc) → Buf (Elt F) ((c : Thread nD τ).loc b) := fun c b => W1 m c b
theorem hF0 (c : Dev nD) (w : Fin cfg0.W) : (dat0 (Ve0 m) c).arrAt w cfg0.N = Vx0 m c (Pipeline.arrRef spec0 w) :=
  (W1_arr m c w).symm
theorem hrest0 (c : Dev nD) : ∀ b, b ∉ Finset.univ.image (Pipeline.arrRef spec0) → Vx0 m c b = Ve0 m c b :=
  fun b hb => W1_of_ne m c b fun w e => hb (Finset.mem_image.mpr ⟨w, Finset.mem_univ _, e⟩)

/-- After the two reshapes (the scaling region's entry). -/
abbrev W2 : Dev nD → Valuation τ sig (Elt F) := fun c => StableHlo.after hostOps1 (W1 m c)
abbrev Ve1 : (c : Dev nD) → (b : Ref sig .tc) → Buf (Elt F) ((c : Thread nD τ).loc b) := fun c b => W2 m c b

/-- The reshapes write their own two results only. -/
theorem W2_keeps (c : Dev nD) (b : Ref sig .tc) (hb : b ∉ ([main_v1, main_v2] : List (Ref sig .tc))) :
    W2 m c (Proc.devRef .tc b) = W1 m c (Proc.devRef .tc b) :=
  StableHlo.after_of_writes_sub hostOps1 _ (hostOps1_writes (F := F)) hb

/-- At the scaling region's exit: its arrays at what the pipeline leaves, every other buffer as entered. -/
def W3 (c : Dev nD) : Valuation τ sig (Elt F) :=
  Pipeline.withArrays spec1 c (W2 m c) fun w => (dat1 (Ve1 m) c).arrAt w cfg1.N
theorem W3_arr (c : Dev nD) (w : Fin cfg1.W) :
    W3 m c (Proc.devRef .tc (Pipeline.arrRef spec1 w)) = (dat1 (Ve1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Vx1 : (c : Dev nD) → (b : Ref sig .tc) → Buf (Elt F) ((c : Thread nD τ).loc b) := fun c b => W3 m c b
theorem hF1 (c : Dev nD) (w : Fin cfg1.W) : (dat1 (Ve1 m) c).arrAt w cfg1.N = Vx1 m c (Pipeline.arrRef spec1 w) :=
  (W3_arr m c w).symm
theorem hrest1 (c : Dev nD) : ∀ b, b ∉ Finset.univ.image (Pipeline.arrRef spec1) → Vx1 m c b = Ve1 m c b :=
  fun b hb => W3_of_ne m c b fun w e => hb (Finset.mem_image.mpr ⟨w, Finset.mem_univ _, e⟩)

/-! ### The arguments end as launched -/

/-- `main_arg0` ends as launched: no region writes it (it is read through an input window, or bypasses the region) and
    no reshape writes it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (Ve1 m) c).arrAt_in 0 rfl _).trans (A_eq1 (Ve1 m) c 0))
    _ = W1 m c (Proc.devRef .tc main_arg0) := W2_keeps m c main_arg0 (by decide)
    _ = W0 m c (Proc.devRef .tc main_arg0) := (W1_arr m c 0).trans (((dat0 (Ve0 m) c).arrAt_in 0 rfl _).trans (A_eq0 (Ve0 m) c 0))
    _ = m ((c : Thread nD τ).loc main_arg0) := rfl
/-- `main_arg1` ends as launched: no region writes it (it is read through an input window, or bypasses the region) and
    no reshape writes it. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 2).trans (((dat1 (Ve1 m) c).arrAt_in 2 rfl _).trans (A_eq1 (Ve1 m) c 2))
    _ = W1 m c (Proc.devRef .tc main_arg1) := W2_keeps m c main_arg1 (by decide)
    _ = W0 m c (Proc.devRef .tc main_arg1) := W1_of_ne m c main_arg1 (by decide)
    _ = m ((c : Thread nD τ).loc main_arg1) := rfl
/-- `main_arg2` ends as launched: no region writes it (it is read through an input window, or bypasses the region) and
    no reshape writes it. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_keeps m c main_arg2 (by decide)
    _ = W0 m c (Proc.devRef .tc main_arg2) := W1_of_ne m c main_arg2 (by decide)
    _ = m ((c : Thread nD τ).loc main_arg2) := rfl
/-- `main_arg3` ends as launched: no region writes it (it is read through an input window, or bypasses the region) and
    no reshape writes it. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := (W3_arr m c 4).trans (((dat1 (Ve1 m) c).arrAt_in 4 rfl _).trans (A_eq1 (Ve1 m) c 4))
    _ = W1 m c (Proc.devRef .tc main_arg3) := W2_keeps m c main_arg3 (by decide)
    _ = W0 m c (Proc.devRef .tc main_arg3) := W1_of_ne m c main_arg3 (by decide)
    _ = m ((c : Thread nD τ).loc main_arg3) := rfl
/-- `main_arg4` ends as launched: no region writes it (it is read through an input window, or bypasses the region) and
    no reshape writes it. -/
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_keeps m c main_arg4 (by decide)
    _ = W0 m c (Proc.devRef .tc main_arg4) := W1_of_ne m c main_arg4 (by decide)
    _ = m ((c : Thread nD τ).loc main_arg4) := rfl

/-- The result array ends at what the scaling region's write-backs leave. -/
theorem W3_main_v3 (c : Dev nD) : W3 m c (Proc.devRef .tc main_v3) = (dat1 (Ve1 m) c).arrAt 6 cfg1.N := W3_arr m c 6

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

/-- The host stretch as a segment, from the contents `W1`. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the last boundary's contents, the generator register
    at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The pooling region over the thread state: entered from every unscoped buffer at the launch contents, left at `W1`.
    Its arrays are split out of the unscoped buffers and put back at the exit contents; the generator register and the
    scoped buffers it does not stage go into its invariant and come back; nothing owed; no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Ve0 m) c).Φ 0 from rfl]
    refine .trans ?_ (hin0 (Ve0 m) c)
    unfold Pipeline.ΦA
    iintro ⟨Hp, -, Hr⟩
    isplitl [Hr]; · iexact Hr
    iexact Hp
  hout c := by
    rw [Pipeline.ownSems0_none, show (pdats m 0 c).Φ (Fin.last _) = (dat0 (Ve0 m) c).Φ (Fin.last cfg0.N) from rfl]
    refine (hout0 (Ve0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scaling region over the thread state: entered from every unscoped buffer at `W2`, left at `W3` (what the launch
    reads at the end), in the same way. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order. -/
abbrev mainSegs : List (Pipeline.Seg (pcfgs (F := F)) adm (pdats m) () defs₀ 𝒱₀ L lv) :=
  [ .region (reg0 m), .host (hseg1 m), .region (reg1 m) ]

/-- @main is the run of the segments. -/
theorem main_run (c : Dev nD) : main (F := F) c = Pipeline.Seg.run (mainSegs m) := (main_chain c).trans (by chain_rfl)

set_option backward.isDefEq.respectTransparency.types false in
/-- THE RUN. At the compiled mesh, from any memory with zero counters, every weakly fair execution of @main on the
    TensorCores terminates, nothing faulting, and in every final state every unscoped buffer holds the last boundary's
    contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

end Cert.KernelIdeal.Hand

end
-- ==== Proof.KPool.lean ====
/-
  The pooling kernel (the first of the program's two kernel regions), point by point, for any float instance.

  Its grid is 4 × 4 × 4; the last coordinate runs over the four tiles of 1024 entries of the axis that is summed, so
  point `t` is the `t % 4`-th tile of its (batch block, channel block). The body keeps an accumulator in a scratch
  buffer between points: at the first tile it is reset to the zero splat and the tile's lane sums are added, at the
  middle tiles the lane sums are added to what the point before left, and at the last tile the sum, times the mean's
  factor, is also stored into the output block — the only points at which that block is written back.
  Here: the body's triple in each of these three cases; what the scratch holds after each point, by recursion on the
  point (`acc0`); the region invariant that carries it; the proof data of the pipeline and its body obligation.
-/
import proofs.«151959_j1752346657530_2_alg».proof.Proof.Gen.Kernel.Launch
import proofs.«151959_j1752346657530_2_alg».proof.Proof.Gen.Kernel.Skeleton
import proofs.«151959_j1752346657530_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Rectangles at offset zero -/

theorem hz2 : (![0, 0] : Fin 2 → Nat) = fun _ => 0 := funext fun a => by fin_cases a <;> rfl
theorem hz3 : (![0, 0, 0] : Fin 3 → Nat) = fun _ => 0 := funext fun a => by fin_cases a <;> rfl

/-- A store through the whole-shape rectangle, last, leaves its payload whatever the buffer held and whatever the
    earlier stores were. -/
theorem read_writes_cons_unit_zero {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self .., by
    show y ∈ (Rect.whole S).set; rw [Rect.set_whole]; exact Finset.mem_univ y⟩)]
  exact View.canon_cons_unit_zero rfl _ w L

/-! ## The body's two conditions, decided over the grid -/

/-- "This is the first tile": the body's first `scf.if`, as its scalar chain computes it from the grid coordinates. -/
abbrev isFirst (i : grid0.Coords) : Prop := (Scalar.cmpi .ne (Scalar.extui (Scalar.cmpi .eq (BitVec.ofNat 32 (i 2).val) 0#32)) 0#32) = 1#1
/-- "This is the last tile": its second. -/
abbrev isLast (i : grid0.Coords) : Prop := k0_cond2 i = 1#1

theorem isFirst_iff : ∀ t : Fin cfg0.N, isFirst (grid0.coords t) ↔ t.val % 4 = 0 :=
  (by decide +kernel : ∀ t : Fin grid0.N, isFirst (grid0.coords t) ↔ t.val % 4 = 0)
theorem isLast_iff : ∀ t : Fin cfg0.N, isLast (grid0.coords t) ↔ t.val % 4 = 3 :=
  (by decide +kernel : ∀ t : Fin grid0.N, isLast (grid0.coords t) ↔ t.val % 4 = 3)

/-- The input window is never idle; the output window is idle, and not written back, exactly off the last tile. -/
theorem live0_0 : ∀ t : Fin cfg0.N, cfg0.idle 0 (grid0.coords t) = false := by decide +kernel
theorem idle0_1 : ∀ t : Fin cfg0.N, ¬isLast (grid0.coords t) → cfg0.idle 1 (grid0.coords t) = true := by decide +kernel
theorem noFlush0_1 : ∀ t : Fin cfg0.N, ¬isLast (grid0.coords t) → (cfg0.win 1).flush t = false := by decide +kernel
theorem live0_1 : ∀ t : Fin cfg0.N, isLast (grid0.coords t) → cfg0.idle 1 (grid0.coords t) = false := by decide +kernel

/-! ## The body's triple, case by case -/

set_option maxHeartbeats 1000000 in
/-- FIRST tile: whatever the scratch held, it ends at the zero splat plus the tile's lane sums; the output block is
    handed back untouched. -/
theorem pool_first (c : Dev nD) (i : grid0.Coords) (arg3 : Memref sig .tc .vmem S8x128x1024 .f32) (harg3 : arg3.IsWhole) (arg4 : Memref sig .tc .vmem S8x128 .f32) (harg4 : arg4.IsWhole) (arg5 : Memref sig .tc .vmem S8x128 .f32) (harg5 : arg5.IsWhole)
    (hc0 : isFirst i) (hc1 : ¬isLast i) (x0 : Vec F S8x128x1024 .f32) (xi1 : Vec F S8x128 .f32) (E : Set ℕ) (K : PUnit → sProp 𝕄) :
    iprop(owns (c : Thread nD τ) arg3 fullShare x0 ∗ owns (c : Thread nD τ) arg4 fullShare xi1 ∗ (∃ d, owns (c : Thread nD τ) arg5 fullShare d)
        ∗ (iprop(owns (c : Thread nD τ) arg3 fullShare x0 ∗ owns (c : Thread nD τ) arg4 fullShare xi1 ∗ owns (c : Thread nD τ) arg5 fullShare (k0_pay2 (k0_pay1 (F := F)) x0)) -∗ K ⟨⟩))
      ⊢ wp frame (wpE (defs₀ (F := F)) Variants.none c none) E (cc0__pool_kernel i arg3 harg3 arg4 harg4 arg5 harg5) K := by
  simp only [cc0__pool_kernel_eq_skeleton]; unfold cc0__pool_kernel_skel
  unfold owns
  iintro ⟨⟨%f0, %hf0, H0⟩, ⟨%f1, %hf1, H1⟩, ⟨%ds0, %fs0, -, HS0⟩, Hk⟩
  obtain rfl := harg3.eq_unread hf0; obtain rfl := harg4.eq_unread hf1
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_run_names
  rw [read_writes_cons_unit_zero _ _ hz2]
  simp only [View.readCov_unit_zero (S := S8x128) arg5.view hz2, View.readAt_eq_ld, harg3.read_unread, View.ld_unit_zero (S := S8x128x1024) hz3]

set_option maxHeartbeats 1000000 in
/-- A MIDDLE tile: the scratch, at what the point before left, ends at that plus the tile's lane sums; the output
    block is handed back untouched. -/
theorem pool_mid (c : Dev nD) (i : grid0.Coords) (arg3 : Memref sig .tc .vmem S8x128x1024 .f32) (harg3 : arg3.IsWhole) (arg4 : Memref sig .tc .vmem S8x128 .f32) (harg4 : arg4.IsWhole) (arg5 : Memref sig .tc .vmem S8x128 .f32) (harg5 : arg5.IsWhole)
    (hc0 : ¬isFirst i) (hc1 : ¬isLast i) (x0 : Vec F S8x128x1024 .f32) (xs0 : Vec F S8x128 .f32) (xi1 : Vec F S8x128 .f32) (E : Set ℕ) (K : PUnit → sProp 𝕄) :
    iprop(owns (c : Thread nD τ) arg3 fullShare x0 ∗ owns (c : Thread nD τ) arg4 fullShare xi1 ∗ owns (c : Thread nD τ) arg5 fullShare xs0
        ∗ (iprop(owns (c : Thread nD τ) arg3 fullShare x0 ∗ owns (c : Thread nD τ) arg4 fullShare xi1 ∗ owns (c : Thread nD τ) arg5 fullShare (k0_pay2 xs0 x0)) -∗ K ⟨⟩))
      ⊢ wp frame (wpE (defs₀ (F := F)) Variants.none c none) E (cc0__pool_kernel i arg3 harg3 arg4 harg4 arg5 harg5) K := by
  simp only [cc0__pool_kernel_eq_skeleton]; unfold cc0__pool_kernel_skel
  unfold owns
  iintro ⟨⟨%f0, %hf0, H0⟩, ⟨%f1, %hf1, H1⟩, ⟨%fs0, %hfs0, HS0⟩, Hk⟩
  obtain rfl := harg3.eq_unread hf0; obtain rfl := harg4.eq_unread hf1; obtain rfl := harg5.eq_unread hfs0
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact HS0
  ipureintro
  sl_unfold_run_names
  rw [read_writes_cons_unit_zero _ _ hz2]
  simp only [View.readAt_eq_ld, harg3.read_unread, harg5.read_unread, View.ld_unit_zero (S := S8x128) hz2, View.ld_unit_zero (S := S8x128x1024) hz3]

set_option maxHeartbeats 1000000 in
/-- The LAST tile: the scratch ends as at a middle tile, and the output block at that sum times the mean's factor. -/
theorem pool_last (c : Dev nD) (i : grid0.Coords) (arg3 : Memref sig .tc .vmem S8x128x1024 .f32) (harg3 : arg3.IsWhole) (arg4 : Memref sig .tc .vmem S8x128 .f32) (harg4 : arg4.IsWhole) (arg5 : Memref sig .tc .vmem S8x128 .f32) (harg5 : arg5.IsWhole)
    (hc0 : ¬isFirst i) (hc1 : isLast i) (x0 : Vec F S8x128x1024 .f32) (xs0 : Vec F S8x128 .f32) (E : Set ℕ) (K : PUnit → sProp 𝕄) :
    iprop(owns (c : Thread nD τ) arg3 fullShare x0 ∗ (∃ d, owns (c : Thread nD τ) arg4 fullShare d) ∗ owns (c : Thread nD τ) arg5 fullShare xs0
        ∗ (iprop(owns (c : Thread nD τ) arg3 fullShare x0 ∗ owns (c : Thread nD τ) arg4 fullShare (k0_pay3 (k0_pay2 xs0 x0)) ∗ owns (c : Thread nD τ) arg5 fullShare (k0_pay2 xs0 x0)) -∗ K ⟨⟩))
      ⊢ wp frame (wpE (defs₀ (F := F)) Variants.none c none) E (cc0__pool_kernel i arg3 harg3 arg4 harg4 arg5 harg5) K := by
  simp only [cc0__pool_kernel_eq_skeleton]; unfold cc0__pool_kernel_skel
  unfold owns
  iintro ⟨⟨%f0, %hf0, H0⟩, ⟨%d1, %f1, -, H1⟩, ⟨%fs0, %hfs0, HS0⟩, Hk⟩
  obtain rfl := harg3.eq_unread hf0; obtain rfl := harg5.eq_unread hfs0
  sl_exec (disch := first | exact hc0 | exact hc1)
  sl_step
  iapply Hk
  isplitl [H0]
  · iexists _; isplitr; · ipureintro; exact harg3.read_unread _
    iexact H0
  isplitl [H1]
  · iexists _; isplitr
    swap; · iexact H1
    ipureintro
    sl_unfold_run_names
    rw [read_writes_cons_unit_zero _ _ hz2]
    simp only [View.readCov_unit_zero (S := S8x128) arg5.view hz2, View.readAt_eq_ld, harg3.read_unread, harg5.read_unread, View.ld_unit_zero (S := S8x128) hz2, View.ld_unit_zero (S := S8x128x1024) hz3]
  iexists _; isplitr
  swap; · iexact HS0
  ipureintro
  sl_unfold_run_names
  rw [read_writes_cons_unit_zero _ _ hz2]
  simp only [View.readAt_eq_ld, harg3.read_unread, harg5.read_unread, View.ld_unit_zero (S := S8x128) hz2, View.ld_unit_zero (S := S8x128x1024) hz3]

end Cert.Kernel.Hand

end
-- ==== Proof.KPoolData.lean ====
/-
  The pooling region's proof data, for any float instance, at a parameter `V`: the buffer contents the region is
  entered from.

  After point `n` the scratch accumulator holds the lane sums of the tiles met so far in `n`'s group of four
  (`acc0`, by recursion on the point: reset at the first tile of a group, added to otherwise); the output block of a
  group's last point holds that sum times the mean's factor. The region invariant carries the scratch at `acc0` from
  one point to the next, beside the other region's scoped buffers (untouched) and the generator register.
-/
import proofs.«151959_j1752346657530_2_alg».proof.Proof.Gen.Kernel.Launch
import proofs.«151959_j1752346657530_2_alg».proof.Proof.Gen.Kernel.Skeleton
import proofs.«151959_j1752346657530_2_alg».proof.Proof.Gen.Kernel.Points
import proofs.«151959_j1752346657530_2_alg».proof.Proof.KPool
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is `V`'s
    and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The accumulator, point by point -/

/-- The scratch operand: a whole scoped buffer of the kernel's own. -/
abbrev scM0 : Memref sig .tc .vmem S8x128 .f32 := Memref.whole cc0_scratch0

/-- What the scratch holds after the body at position `n`: at the first tile of a group of four the zero splat plus
    the tile's lane sums, otherwise what the point before left plus the tile's lane sums. -/
def acc0 (c : Dev nD) : (n : ℕ) → n < cfg0.N → Vec F S8x128 .f32
  | 0, hn => k0_pay2 (k0_pay1 (F := F)) (iblk0 V c 0 ⟨0, hn⟩)
  | n + 1, hn =>
    if (n + 1) % 4 = 0 then k0_pay2 (k0_pay1 (F := F)) (iblk0 V c 0 ⟨n + 1, hn⟩)
    else k0_pay2 (acc0 c n (Nat.lt_of_succ_lt hn)) (iblk0 V c 0 ⟨n + 1, hn⟩)

theorem acc0_first (c : Dev nD) (t : Fin cfg0.N) (h : t.val % 4 = 0) :
    acc0 V c t.val t.isLt = k0_pay2 (k0_pay1 (F := F)) (iblk0 V c 0 t) := by
  obtain ⟨n, hn⟩ := t
  cases n with
  | zero => rfl
  | succ n => exact if_pos h

theorem acc0_next (c : Dev nD) (t : Fin cfg0.N) (h : ¬t.val % 4 = 0) :
    acc0 V c t.val t.isLt = k0_pay2 (acc0 V c (t.val - 1) (Nat.lt_of_le_of_lt (Nat.sub_le _ _) t.isLt)) (iblk0 V c 0 t) := by
  obtain ⟨n, hn⟩ := t
  cases n with
  | zero => exact absurd (Nat.zero_mod _) h
  | succ n => exact if_neg h

/-! ## The region invariant -/

/-- The scoped buffers of the other region, each whole at some contents: they ride along untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- The class's invariant with the scratch operand as a memref owned at some contents. -/
theorem PhiA0_eq (c : Dev nD) :
    (Pipeline.ΦA spec0 c : sProp 𝕄)
      = iprop(((∃ d, owns (c : Thread nD τ) scM0 fullShare d) ∗ others0 c) ∗ (∃ r, prngReg c r)) := by
  unfold Pipeline.ΦA others0; rw [scopedRest0_eq]; simp only [scM0, owns_whole]; try rfl

/-- The invariant before position `n`: before the first point the scratch at anything; afterwards at what the point
    before left in it. -/
def PhiS (c : Dev nD) : (n : ℕ) → n ≤ cfg0.N → sProp 𝕄
  | 0, _ => Pipeline.ΦA spec0 c
  | n + 1, hn => iprop((owns (c : Thread nD τ) scM0 fullShare (acc0 V c n hn) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM0 fullShare (acc0 V c n hn) ∗ others0 c) ∗ (∃ r, prngReg c r)) := rfl

theorem PhiS_pos (c : Dev nD) (n : ℕ) (h : n ≤ cfg0.N) (hz : n ≠ 0) :
    PhiS V c n h = iprop((owns (c : Thread nD τ) scM0 fullShare (acc0 V c (n - 1) (by omega)) ∗ others0 c) ∗ (∃ r, prngReg c r)) := by
  cases n with
  | zero => exact absurd rfl hz
  | succ n => rfl

/-! ## The pipeline's proof data -/

/-- The arrays as the region finds them; after the body at point `t` the input's buffer at its block and the output's at
    the accumulated sum times the mean's factor; the invariant carrying the scratch; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay3 (acc0 V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = k0_pay3 (acc0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's memref holds its block; the point's position in its group of four says which
    case it is in; the invariant hands the body the scratch at what the point before left (at anything at the very
    first point) and takes it back at this point's contents; the output block is stored at a group's last point and
    handed back untouched elsewhere; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [live0_0 t], after0_0]
  have hN : t.val < 64 := lt_of_lt_of_eq t.isLt (show cfg0.N = 64 from N_0)
  by_cases h1 : t.val % 4 = 3
  · have h0 : ¬t.val % 4 = 0 := by omega
    have hz : t.val ≠ 0 := by omega
    rw [show (dat0 V c).leavesExact 1 t = owns (c : Thread nD τ) (st0_1 t) fullShare ((dat0 V c).after 1 t) from by
      unfold Dat.leavesExact; rw [live0_1 t ((isLast_iff t).mpr h1)], after0_1]
    rw [acc0_next V c t h0, PhiS_castSucc V c t, PhiS_pos V c _ _ hz]
    iintro ⟨⟨⟨HS0, Hoth⟩, Hg⟩, Ho, ⟨%d0, H0⟩, ⟨%d1, H1⟩⟩
    iapply (pool_last c (grid0.coords t) _ _ _ _ _ _ (fun h => h0 ((isFirst_iff t).mp h)) ((isLast_iff t).mpr h1) (iblk0 V c 0 t) _ Set.univ _)
    isplitl [H0]; · iexact H0
    isplitl [H1]; · iexists _; iexact H1
    isplitl [HS0]; · iexact HS0
    iintro ⟨H0, H1, HS0⟩
    isplitl [HS0 Hoth Hg]
    · isplitl [HS0 Hoth]
      · isplitl [HS0]; · iexact HS0
        iexact Hoth
      iexact Hg
    isplitl [Ho]; · iexact Ho
    isplitl [H0]; · iexact H0
    iexact H1
  · rw [Dat.leavesExact_idle (dat0 V c) 1 t (idle0_1 t (fun h => h1 ((isLast_iff t).mp h))) (noFlush0_1 t (fun h => h1 ((isLast_iff t).mp h)))]
    by_cases h0 : t.val % 4 = 0
    · rw [acc0_first V c t h0]
      by_cases hz : t.val = 0
      · rw [PhiS_castSucc V c t, PhiS_zero V c _ _ hz, PhiA0_eq]
        iintro ⟨⟨⟨HS0, Hoth⟩, Hg⟩, Ho, ⟨%d0, H0⟩, ⟨%d1, H1⟩⟩
        iapply (pool_first c (grid0.coords t) _ _ _ _ _ _ ((isFirst_iff t).mpr h0) (fun h => h1 ((isLast_iff t).mp h)) (iblk0 V c 0 t) _ Set.univ _)
        isplitl [H0]; · iexact H0
        isplitl [H1]; · iexact H1
        isplitl [HS0]; · iexact HS0
        iintro ⟨H0, H1, HS0⟩
        isplitl [HS0 Hoth Hg]
        · isplitl [HS0 Hoth]
          · isplitl [HS0]; · iexact HS0
            iexact Hoth
          iexact Hg
        isplitl [Ho]; · iexact Ho
        isplitl [H0]; · iexact H0
        iexists _; iexact H1
      · rw [PhiS_castSucc V c t, PhiS_pos V c _ _ hz]
        iintro ⟨⟨⟨HS0, Hoth⟩, Hg⟩, Ho, ⟨%d0, H0⟩, ⟨%d1, H1⟩⟩
        iapply (pool_first c (grid0.coords t) _ _ _ _ _ _ ((isFirst_iff t).mpr h0) (fun h => h1 ((isLast_iff t).mp h)) (iblk0 V c 0 t) _ Set.univ _)
        isplitl [H0]; · iexact H0
        isplitl [H1]; · iexact H1
        isplitl [HS0]; · iexists _; iexact HS0
        iintro ⟨H0, H1, HS0⟩
        isplitl [HS0 Hoth Hg]
        · isplitl [HS0 Hoth]
          · isplitl [HS0]; · iexact HS0
            iexact Hoth
          iexact Hg
        isplitl [Ho]; · iexact Ho
        isplitl [H0]; · iexact H0
        iexists _; iexact H1
    · have hz : t.val ≠ 0 := fun e => h0 (by rw [e])
      rw [acc0_next V c t h0, PhiS_castSucc V c t, PhiS_pos V c _ _ hz]
      iintro ⟨⟨⟨HS0, Hoth⟩, Hg⟩, Ho, ⟨%d0, H0⟩, ⟨%d1, H1⟩⟩
      iapply (pool_mid c (grid0.coords t) _ _ _ _ _ _ (fun h => h0 ((isFirst_iff t).mp h)) (fun h => h1 ((isLast_iff t).mp h)) (iblk0 V c 0 t) _ _ Set.univ _)
      isplitl [H0]; · iexact H0
      isplitl [H1]; · iexact H1
      isplitl [HS0]; · iexact HS0
      iintro ⟨H0, H1, HS0⟩
      isplitl [HS0 Hoth Hg]
      · isplitl [HS0 Hoth]
        · isplitl [HS0]; · iexact HS0
          iexact Hoth
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point, -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- and after the last point the invariant gives it back, the scratch's contents forgotten. -/
theorem hout0 (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ hne, PhiA0_eq]
  iintro ⟨⟨HS0, Hoth⟩, Hg⟩
  isplitl [HS0 Hoth]
  · isplitl [HS0]; · iexists _; iexact HS0
    iexact Hoth
  iexact Hg

end Region

end Cert.Kernel.Hand

end
-- ==== Proof.KScale.lean ====
/-
  The scaling kernel (the second of the program's two kernel regions), at one grid point, for any float instance.

  Its grid is 4 × 4 × 2: a block of 8 batch entries × 128 channels × 2048 positions of the input per point. Beside that
  block the body is handed, whole, the matrix of means the first region produced, the two weight matrices and the two
  biases (as rows). At EVERY point it recomputes the whole 32 × 512 gate matrix from them into a scratch buffer, reads
  back the 8 × 128 block of gates of its batch and channel blocks, and stores the input block times those gates,
  broadcast along the positions. Nothing is kept between points: the scratch is overwritten whole before it is read.
-/
import proofs.«151959_j1752346657530_2_alg».proof.Proof.Gen.Kernel.Launch
import proofs.«151959_j1752346657530_2_alg».proof.Proof.Gen.Kernel.Skeleton
import proofs.«151959_j1752346657530_2_alg».proof.Proof.Gen.Kernel.Points
import proofs.«151959_j1752346657530_2_alg».proof.Proof.KPool
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's triple -/

/-- The 8 × 128 block of the gate matrix that point `i` reads back: rows `8 · i₀ …`, columns `128 · i₁ …`. -/
abbrev gateRect (i : grid1.Coords) : Rect S32x512 := Rect.unit (s := S32x512) (k1_off1 i) S8x128.size (k1_off1_inb i)

set_option maxHeartbeats 2000000 in
/-- On whole staging memrefs — the six inputs at their contents, the output block and the scratch at anything — the body
    runs to the continuation holding the inputs as they were, the output block at the input block times the gates of
    its rows and channels, the scratch at some contents. -/
theorem scale_body (c : Dev nD) (i : grid1.Coords) (arg3 : Memref sig .tc .vmem S8x128x2048 .f32) (harg3 : arg3.IsWhole) (arg4 : Memref sig .tc .vmem S32x512 .f32) (harg4 : arg4.IsWhole) (arg5 : Memref sig .tc .vmem S256x512 .f32) (harg5 : arg5.IsWhole) (arg6 : Memref sig .tc .vmem S1x256 .f32) (harg6 : arg6.IsWhole) (arg7 : Memref sig .tc .vmem S512x256 .f32) (harg7 : arg7.IsWhole) (arg8 : Memref sig .tc .vmem S1x512 .f32) (harg8 : arg8.IsWhole) (arg9 : Memref sig .tc .vmem S8x128x2048 .f32) (harg9 : arg9.IsWhole) (arg10 : Memref sig .tc .vmem S32x512 .f32) (harg10 : arg10.IsWhole)
    (x0 : Vec F S8x128x2048 .f32) (x1 : Vec F S32x512 .f32) (x2 : Vec F S256x512 .f32) (x3 : Vec F S1x256 .f32) (x4 : Vec F S512x256 .f32) (x5 : Vec F S1x512 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
        ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ owns (c : Thread nD τ) arg9 fullShare (k1_pay2 (View.ld (k1_pay1 x1 x2 x3 x4 x5) (gateRect i)) x0)
            ∗ (∃ d, owns (c : Thread nD τ) arg10 fullShare d)) -∗ K ⟨⟩))
      ⊢ wp frame (wpE (defs₀ (F := F)) Variants.none c none) E (cc1__scale_kernel i arg3 harg3 arg4 harg4 arg5 harg5 arg6 harg6 arg7 harg7 arg8 harg8 arg9 harg9 arg10 harg10) K := by
  simp only [cc1__scale_kernel_eq_skeleton]; unfold cc1__scale_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr
    swap; · iexact H6
    ipureintro
    sl_unfold_run_names
    rw [read_writes_cons_unit_zero _ _ hz3]
    simp only [View.readAt_eq_ld, read_writes_cons_unit_zero (S := S32x512) arg10.view arg10.view.junk hz2, harg3.read_unread, harg4.read_unread, harg5.read_unread, harg6.read_unread, harg7.read_unread, harg8.read_unread,
      View.ld_unit_zero (S := S32x512) hz2, View.ld_unit_zero (S := S256x512) hz2, View.ld_unit_zero (S := S1x256) hz2, View.ld_unit_zero (S := S512x256) hz2, View.ld_unit_zero (S := S1x512) hz2, View.ld_unit_zero (S := S8x128x2048) hz3]
  iexists _; iexists _; isplitr
  swap; · iexact H7
  ipureintro; rfl

end Cert.Kernel.Hand

end
-- ==== Proof.KScaleData.lean ====
/-
  The scaling region's proof data, for any float instance, at a parameter `V`: the buffer contents the region is
  entered from (after the first region and the two reshapes of the biases into rows).

  Every input window's staging buffer holds its block at every point — the input's block moves with the point, the
  five whole-array windows (the means, the weights, the bias rows) are fetched once and never move —, and the output
  block after the body is the input block times the gates of its rows and channels (`out1`). The region keeps nothing
  between points: its invariant is the scoped buffers it does not stage, each at some contents, and the generator
  register; the gate scratch is taken out of it and put back at every point.
-/
import proofs.«151959_j1752346657530_2_alg».proof.Proof.Gen.Kernel.Launch
import proofs.«151959_j1752346657530_2_alg».proof.Proof.Gen.Kernel.Skeleton
import proofs.«151959_j1752346657530_2_alg».proof.Proof.Gen.Kernel.Points
import proofs.«151959_j1752346657530_2_alg».proof.Proof.KScale
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output block -/

/-- The scratch operand: a whole scoped buffer of the kernel's own. -/
abbrev scM1 : Memref sig .tc .vmem S32x512 .f32 := Memref.whole cc1_scratch0

/-- The output block after the body at point `t`: the input block times the 8 × 128 block, at the point's rows and
    channels, of the gate matrix computed from the means, the weights and the bias rows. -/
def out1 (c : Dev nD) (t : Fin cfg1.N) : Vec F S8x128x2048 .f32 :=
  k1_pay2 (View.ld (k1_pay1 (iblk1 V c 1 t) (iblk1 V c 2 t) (iblk1 V c 3 t) (iblk1 V c 4 t) (iblk1 V c 5 t)) (gateRect (grid1.coords t))) (iblk1 V c 0 t)

/-- The class's invariant with the scratch operand as a memref owned at some contents (it is the last of the scoped
    buffers the region does not stage; the others are the first region's). -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4800000 in
/-- The body at any point: the inputs' memrefs hold their blocks, so the body's triple applies; the invariant lends the
    scratch and takes it back; the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  rw [show (dat1 V c).Φ t.castSucc = Pipeline.ΦA spec1 c from rfl, PhiA1_eq]
  iintro ⟨⟨⟨Ha, Hb, Hc, Hd, He, HS⟩, Hg⟩, Ho, ⟨%d0, H0⟩, ⟨%d1, H1⟩, ⟨%d2, H2⟩, ⟨%d3, H3⟩, ⟨%d4, H4⟩, ⟨%d5, H5⟩, ⟨%d6, H6⟩⟩
  iapply (scale_body c (grid1.coords t) _ _ _ _ _ _ _ _ _ _ _ _ _ _ _ _ (iblk1 V c 0 t) (iblk1 V c 1 t) (iblk1 V c 2 t) (iblk1 V c 3 t) (iblk1 V c 4 t) (iblk1 V c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, H6, HS⟩
  isplitl [Ha Hb Hc Hd He HS Hg]
  · isplitl [Ha Hb Hc Hd He HS]
    · isplitl [Ha]; · iexact Ha
      isplitl [Hb]; · iexact Hb
      isplitl [Hc]; · iexact Hc
      isplitl [Hd]; · iexact Hd
      isplitl [He]; · iexact He
      iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.KRun.lean ====
/-
  The whole run of the program, for any float instance: @main is the pooling region, two reshapes of the biases into
  rows on the host, and the scaling region.

  The buffer contents at each boundary are a fold from the launch memory: after a region, its arrays hold what the
  pipeline's write-backs leave (the inputs as entered, the output's blocks folded in) and every other buffer is as
  entered; after the host stretch, the reshapes' results are written. Each region is entered from "every unscoped
  buffer at the boundary's contents, the generator register at some state, nothing owed" and left in the same form,
  so the segments chain. The run's post says that every unscoped buffer ends at the last boundary's contents: the
  argument arrays read back through the fold to the launch memory, and the result array is what the scaling region's
  write-backs leave.
-/
import proofs.«151959_j1752346657530_2_alg».proof.Proof.Gen.Kernel.Launch
import proofs.«151959_j1752346657530_2_alg».proof.Proof.Gen.Kernel.Skeleton
import proofs.«151959_j1752346657530_2_alg».proof.Proof.Gen.Kernel.Points
import proofs.«151959_j1752346657530_2_alg».proof.Proof.Gen.Kernel.Regions
import proofs.«151959_j1752346657530_2_alg».proof.Proof.KPoolData
import proofs.«151959_j1752346657530_2_alg».proof.Proof.KScaleData
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (the pooling region's entry). -/
abbrev W0 : Dev nD → Valuation τ sig (Elt F) := fun c b => m ((c : Dev nD), b)
/-- The same read at the TensorCore's references (what the pooling region's proof data take). -/
abbrev Ve0 : (c : Dev nD) → (b : Ref sig .tc) → Buf (Elt F) ((c : Thread nD τ).loc b) := fun c b => W0 m c b

/-- At the pooling region's exit: its arrays at what the pipeline leaves, every other buffer as entered. -/
def W1 (c : Dev nD) : Valuation τ sig (Elt F) :=
  Pipeline.withArrays spec0 c (W0 m c) fun w => (dat0 (Ve0 m) c).arrAt w cfg0.N
theorem W1_arr (c : Dev nD) (w : Fin cfg0.W) :
    W1 m c (Proc.devRef .tc (Pipeline.arrRef spec0 w)) = (dat0 (Ve0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev Vx0 : (c : Dev nD) → (b : Ref sig .tc) → Buf (Elt F) ((c : Thread nD τ).loc b) := fun c b => W1 m c b
theorem hF0 (c : Dev nD) (w : Fin cfg0.W) : (dat0 (Ve0 m) c).arrAt w cfg0.N = Vx0 m c (Pipeline.arrRef spec0 w) :=
  (W1_arr m c w).symm
theorem hrest0 (c : Dev nD) : ∀ b, b ∉ Finset.univ.image (Pipeline.arrRef spec0) → Vx0 m c b = Ve0 m c b :=
  fun b hb => W1_of_ne m c b fun w e => hb (Finset.mem_image.mpr ⟨w, Finset.mem_univ _, e⟩)

/-- After the two reshapes (the scaling region's entry). -/
abbrev W2 : Dev nD → Valuation τ sig (Elt F) := fun c => StableHlo.after hostOps1 (W1 m c)
abbrev Ve1 : (c : Dev nD) → (b : Ref sig .tc) → Buf (Elt F) ((c : Thread nD τ).loc b) := fun c b => W2 m c b

/-- The reshapes write their own two results only. -/
theorem W2_keeps (c : Dev nD) (b : Ref sig .tc) (hb : b ∉ ([main_v1, main_v2] : List (Ref sig .tc))) :
    W2 m c (Proc.devRef .tc b) = W1 m c (Proc.devRef .tc b) :=
  StableHlo.after_of_writes_sub hostOps1 _ (hostOps1_writes (F := F)) hb

/-- At the scaling region's exit: its arrays at what the pipeline leaves, every other buffer as entered. -/
def W3 (c : Dev nD) : Valuation τ sig (Elt F) :=
  Pipeline.withArrays spec1 c (W2 m c) fun w => (dat1 (Ve1 m) c).arrAt w cfg1.N
theorem W3_arr (c : Dev nD) (w : Fin cfg1.W) :
    W3 m c (Proc.devRef .tc (Pipeline.arrRef spec1 w)) = (dat1 (Ve1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev Vx1 : (c : Dev nD) → (b : Ref sig .tc) → Buf (Elt F) ((c : Thread nD τ).loc b) := fun c b => W3 m c b
theorem hF1 (c : Dev nD) (w : Fin cfg1.W) : (dat1 (Ve1 m) c).arrAt w cfg1.N = Vx1 m c (Pipeline.arrRef spec1 w) :=
  (W3_arr m c w).symm
theorem hrest1 (c : Dev nD) : ∀ b, b ∉ Finset.univ.image (Pipeline.arrRef spec1) → Vx1 m c b = Ve1 m c b :=
  fun b hb => W3_of_ne m c b fun w e => hb (Finset.mem_image.mpr ⟨w, Finset.mem_univ _, e⟩)

/-! ### The arguments end as launched -/

/-- `main_arg0` ends as launched: no region writes it (it is read through an input window, or bypasses the region) and
    no reshape writes it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (Ve1 m) c).arrAt_in 0 rfl _).trans (A_eq1 (Ve1 m) c 0))
    _ = W1 m c (Proc.devRef .tc main_arg0) := W2_keeps m c main_arg0 (by decide)
    _ = W0 m c (Proc.devRef .tc main_arg0) := (W1_arr m c 0).trans (((dat0 (Ve0 m) c).arrAt_in 0 rfl _).trans (A_eq0 (Ve0 m) c 0))
    _ = m ((c : Thread nD τ).loc main_arg0) := rfl
/-- `main_arg1` ends as launched: no region writes it (it is read through an input window, or bypasses the region) and
    no reshape writes it. -/
theorem W3_main_arg1 (c : Dev nD) : W3 m c (Proc.devRef .tc main_arg1) = m ((c : Thread nD τ).loc main_arg1) :=
  calc W3 m c (Proc.devRef .tc main_arg1)
    _ = W2 m c (Proc.devRef .tc main_arg1) := (W3_arr m c 2).trans (((dat1 (Ve1 m) c).arrAt_in 2 rfl _).trans (A_eq1 (Ve1 m) c 2))
    _ = W1 m c (Proc.devRef .tc main_arg1) := W2_keeps m c main_arg1 (by decide)
    _ = W0 m c (Proc.devRef .tc main_arg1) := W1_of_ne m c main_arg1 (by decide)
    _ = m ((c : Thread nD τ).loc main_arg1) := rfl
/-- `main_arg2` ends as launched: no region writes it (it is read through an input window, or bypasses the region) and
    no reshape writes it. -/
theorem W3_main_arg2 (c : Dev nD) : W3 m c (Proc.devRef .tc main_arg2) = m ((c : Thread nD τ).loc main_arg2) :=
  calc W3 m c (Proc.devRef .tc main_arg2)
    _ = W2 m c (Proc.devRef .tc main_arg2) := W3_of_ne m c main_arg2 (by decide)
    _ = W1 m c (Proc.devRef .tc main_arg2) := W2_keeps m c main_arg2 (by decide)
    _ = W0 m c (Proc.devRef .tc main_arg2) := W1_of_ne m c main_arg2 (by decide)
    _ = m ((c : Thread nD τ).loc main_arg2) := rfl
/-- `main_arg3` ends as launched: no region writes it (it is read through an input window, or bypasses the region) and
    no reshape writes it. -/
theorem W3_main_arg3 (c : Dev nD) : W3 m c (Proc.devRef .tc main_arg3) = m ((c : Thread nD τ).loc main_arg3) :=
  calc W3 m c (Proc.devRef .tc main_arg3)
    _ = W2 m c (Proc.devRef .tc main_arg3) := (W3_arr m c 4).trans (((dat1 (Ve1 m) c).arrAt_in 4 rfl _).trans (A_eq1 (Ve1 m) c 4))
    _ = W1 m c (Proc.devRef .tc main_arg3) := W2_keeps m c main_arg3 (by decide)
    _ = W0 m c (Proc.devRef .tc main_arg3) := W1_of_ne m c main_arg3 (by decide)
    _ = m ((c : Thread nD τ).loc main_arg3) := rfl
/-- `main_arg4` ends as launched: no region writes it (it is read through an input window, or bypasses the region) and
    no reshape writes it. -/
theorem W3_main_arg4 (c : Dev nD) : W3 m c (Proc.devRef .tc main_arg4) = m ((c : Thread nD τ).loc main_arg4) :=
  calc W3 m c (Proc.devRef .tc main_arg4)
    _ = W2 m c (Proc.devRef .tc main_arg4) := W3_of_ne m c main_arg4 (by decide)
    _ = W1 m c (Proc.devRef .tc main_arg4) := W2_keeps m c main_arg4 (by decide)
    _ = W0 m c (Proc.devRef .tc main_arg4) := W1_of_ne m c main_arg4 (by decide)
    _ = m ((c : Thread nD τ).loc main_arg4) := rfl

/-- The result array ends at what the scaling region's write-backs leave. -/
theorem W3_main_v3 (c : Dev nD) : W3 m c (Proc.devRef .tc main_v3) = (dat1 (Ve1 m) c).arrAt 6 cfg1.N := W3_arr m c 6

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

/-- The host stretch as a segment, from the contents `W1`. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the last boundary's contents, the generator register
    at some state. -/
abbrev Tₙ (c : Dev nD) : sProp 𝕄 := iprop(StableHlo.held (c : Thread nD τ) (Pipeline.ucRefs τ sig) (W3 m c) ∗ ∃ r, prngReg c r)

/-! ## The regions as segments -/

set_option backward.isDefEq.respectTransparency.types false in
/-- The pooling region over the thread state: entered from every unscoped buffer at the launch contents, left at `W1`.
    Its arrays are split out of the unscoped buffers and put back at the exit contents; the generator register and the
    scoped buffers it does not stage go into its invariant and come back; nothing owed; no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Ve0 m) c).Φ 0 from rfl]
    refine .trans ?_ (hin0 (Ve0 m) c)
    unfold Pipeline.ΦA
    iintro ⟨Hp, -, Hr⟩
    isplitl [Hr]; · iexact Hr
    iexact Hp
  hout c := by
    rw [Pipeline.ownSems0_none, show (pdats m 0 c).Φ (Fin.last _) = (dat0 (Ve0 m) c).Φ (Fin.last cfg0.N) from rfl]
    refine (hout0 (Ve0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (Vx0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The scaling region over the thread state: entered from every unscoped buffer at `W2`, left at `W3` (what the launch
    reads at the end), in the same way. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (Vx1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's three segments in order. -/
abbrev mainSegs : List (Pipeline.Seg (pcfgs (F := F)) adm (pdats m) () defs₀ 𝒱₀ L lv) :=
  [ .region (reg0 m), .host (hseg1 m), .region (reg1 m) ]

/-- @main is the run of the segments. -/
theorem main_run (c : Dev nD) : main (F := F) c = Pipeline.Seg.run (mainSegs m) := (main_chain c).trans (by chain_rfl)

set_option backward.isDefEq.respectTransparency.types false in
/-- THE RUN. At the compiled mesh, from any memory with zero counters, every weakly fair execution of @main on the
    TensorCores terminates, nothing faulting, and in every final state every unscoped buffer holds the last boundary's
    contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (mainSegs m)
    (fun c Q => by rw [main_run m c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

end Cert.Kernel.Hand

end
-- ==== Proof.Frames.lean ====
/-
  The three frame claims: each program runs to the end, faults nowhere and leaves its argument arrays as launched.
  For the two kernel programs this is read off the run over @main's segments (both are the same text in two
  namespaces, the word-level one read at the bit-exact instance, the idealized one at the extended reals); for the
  reference, which launches no kernel, off its run as a list of host operations.
-/
import proofs.«151959_j1752346657530_2_alg».proof.Defs
import proofs.«151959_j1752346657530_2_alg».proof.Proof.Run
import proofs.«151959_j1752346657530_2_alg».proof.Proof.KRun
import proofs.«151959_j1752346657530_2_alg».proof.Proof.Gen.ReferenceIdeal.Run

noncomputable section

namespace Cert.Proof.Frames

open Idealize.ShloMosaic Idealize.ShloMosaic.TcCoe Idealize.SL.Sem

/-- `Kernel` runs to the end and leaves its five argument arrays as launched: each is an unscoped buffer, which the run's post
    puts at the last boundary's contents, and those read back through the fold to the launch memory. -/
theorem frame_Kernel (F : FTy → Type) [FloatOps F] (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)) :=
  (θ_run (Cert.Kernel.defs (F := F)) _ _).mono (fun r h c => ⟨
    (h c _ (Cert.Kernel.Hand.mem_uc Cert.Kernel.main_arg0 (by decide))).trans (Cert.Kernel.Hand.W3_main_arg0 m c),
    (h c _ (Cert.Kernel.Hand.mem_uc Cert.Kernel.main_arg1 (by decide))).trans (Cert.Kernel.Hand.W3_main_arg1 m c),
    (h c _ (Cert.Kernel.Hand.mem_uc Cert.Kernel.main_arg2 (by decide))).trans (Cert.Kernel.Hand.W3_main_arg2 m c),
    (h c _ (Cert.Kernel.Hand.mem_uc Cert.Kernel.main_arg3 (by decide))).trans (Cert.Kernel.Hand.W3_main_arg3 m c),
    (h c _ (Cert.Kernel.Hand.mem_uc Cert.Kernel.main_arg4 (by decide))).trans (Cert.Kernel.Hand.W3_main_arg4 m c)⟩)
    (Cert.Kernel.Hand.run_all m ρ)

/-- `KernelIdeal` runs to the end and leaves its five argument arrays as launched: each is an unscoped buffer, which the run's post
    puts at the last boundary's contents, and those read back through the fold to the launch memory. -/
theorem frame_KernelIdeal (F : FTy → Type) [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run (Cert.KernelIdeal.defs (F := F)) _ _).mono (fun r h c => ⟨
    (h c _ (Cert.KernelIdeal.Hand.mem_uc Cert.KernelIdeal.main_arg0 (by decide))).trans (Cert.KernelIdeal.Hand.W3_main_arg0 m c),
    (h c _ (Cert.KernelIdeal.Hand.mem_uc Cert.KernelIdeal.main_arg1 (by decide))).trans (Cert.KernelIdeal.Hand.W3_main_arg1 m c),
    (h c _ (Cert.KernelIdeal.Hand.mem_uc Cert.KernelIdeal.main_arg2 (by decide))).trans (Cert.KernelIdeal.Hand.W3_main_arg2 m c),
    (h c _ (Cert.KernelIdeal.Hand.mem_uc Cert.KernelIdeal.main_arg3 (by decide))).trans (Cert.KernelIdeal.Hand.W3_main_arg3 m c),
    (h c _ (Cert.KernelIdeal.Hand.mem_uc Cert.KernelIdeal.main_arg4 (by decide))).trans (Cert.KernelIdeal.Hand.W3_main_arg4 m c)⟩)
    (Cert.KernelIdeal.Hand.run_all m ρ)

/-- The reference launches no kernel: its run as a list of host operations ends with each argument unchanged (and the
    result at the operations' composed term, dropped here). -/
theorem frame_ReferenceIdeal (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)) :=
  (θ_run (Cert.ReferenceIdeal.defs (F := Ideal)) _ _).mono (fun _ h c => (h c).2) (Cert.ReferenceIdeal.Value.run (F := Ideal) m ρ)

end Cert.Proof.Frames

end
-- ==== Proof.Entry.lean ====
/-
  What the scaling region is entered with, array by array, at the extended reals: the input and the two weight
  matrices are the launch contents (no region and no reshape writes them); the matrix of means is what the pooling
  region's write-backs left; each bias row is its bias vector reshaped, so its entry of column `k` is the vector's `k`-th.
-/
import proofs.«151959_j1752346657530_2_alg».proof.Proof.Run
import Idealize.ShloMosaic.Lib.ValueIdx
import Idealize.ShloMosaic.Lib.ValueLayout
import Idealize.ShloMosaic.Lib.StableHlo.Run

noncomputable section

namespace Cert.KernelIdeal.Entry

open Cert.KernelIdeal Cert.KernelIdeal.Gen Cert.KernelIdeal.Hand
open Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ) (c : Dev nD)

theorem input_eq : Ve1 m c main_arg0 = m ((c : Thread nD τ).loc main_arg0) :=
  (W2_keeps m c main_arg0 (by decide)).trans
    (((W1_arr m c 0).trans (((dat0 (Ve0 m) c).arrAt_in 0 rfl _).trans (A_eq0 (Ve0 m) c 0))).trans rfl)

theorem weight1_eq : Ve1 m c main_arg1 = m ((c : Thread nD τ).loc main_arg1) :=
  (W2_keeps m c main_arg1 (by decide)).trans ((W1_of_ne m c main_arg1 (by decide)).trans rfl)

theorem weight2_eq : Ve1 m c main_arg3 = m ((c : Thread nD τ).loc main_arg3) :=
  (W2_keeps m c main_arg3 (by decide)).trans ((W1_of_ne m c main_arg3 (by decide)).trans rfl)

theorem means_eq : Ve1 m c main_v0 = (dat0 (Ve0 m) c).arrAt 1 cfg0.N :=
  (W2_keeps m c main_v0 (by decide)).trans (W1_arr m c 1)

theorem bias1_row : (Ve1 m c main_v1 : S1x256.Idx → Elt F .f32) = shapeCast S1x256 (m ((c : Thread nD τ).loc main_arg2)) shapeCasts_S256_S1x256 := by
  dsimp only [Ve1, W2, hostOps1]
  after_results
  rw [W1_of_ne m c main_arg2 (by decide)]
  rfl

theorem bias2_row : (Ve1 m c main_v2 : S1x512.Idx → Elt F .f32) = shapeCast S1x512 (m ((c : Thread nD τ).loc main_arg4)) shapeCasts_S512_S1x512 := by
  dsimp only [Ve1, W2, hostOps1]
  after_results
  rw [W1_of_ne m c main_arg4 (by decide)]
  rfl

/-- The first bias row at column `k` is the bias vector's `k`-th entry, -/
theorem bias1_apply (u : Fin 1) (k : Fin 256) : Ve1 m c main_v1 (ix2 u k) = m ((c : Thread nD τ).loc main_arg2) (ix1 k) := by
  rw [show (Ve1 m c main_v1 : S1x256.Idx → Elt F .f32) = _ from bias1_row m c]
  exact shapeCast_a_1a_apply _ _ u k

/-- and the second likewise. -/
theorem bias2_apply (u : Fin 1) (k : Fin 512) : Ve1 m c main_v2 (ix2 u k) = m ((c : Thread nD τ).loc main_arg4) (ix1 k) := by
  rw [show (Ve1 m c main_v2 : S1x512.Idx → Elt F .f32) = _ from bias2_row m c]
  exact shapeCast_a_1a_apply _ _ u k

end Cert.KernelIdeal.Entry

end
-- ==== Proof.LibPlainDot.lean ====
/-
  Two general facts about sums, used wherever a matrix product is read entry by entry.

  * A product of an [a, K] matrix with a [K, b] matrix on the matrix unit, accumulated into the zero array, has at
    entry (p, q) the value  ∑ k < K, lhs (p, k) · rhs (k, q)  on the extended reals. The dimension numbers enter only
    through four facts about where the contraction reads its operands, each of which is decided by unfolding for a
    literal record: it contracts the left operand's axis 1 with the right operand's axis 0, and carries the output's
    row to the left operand and the output's column to the right one.
  * A sum over  n = a + b + c  consecutive positions is the sum over the first a, plus the sum over the next b, plus
    the sum over the last c. This holds in any commutative monoid, so on the extended reals it needs no finiteness:
    only the order and grouping of the terms change.
-/
import Idealize.ShloMosaic.PureOps.Ideal.Laws
import Idealize.ShloMosaic.Lib.ValueIdx

noncomputable section

namespace Idealize.ShloMosaic.PlainDot

open Idealize.ShloMosaic Idealize.ShloMosaic.ValueIdx

/-- A sum over `a + b + c` consecutive positions, cut into its three consecutive bands. -/
theorem sum_three_bands {M : Type} [AddCommMonoid M] {a b c n : ℕ} (hn : a + b + c = n) (f : Fin n → M) :
    ∑ k : Fin n, f k
      = (∑ k : Fin a, f ⟨k.val, by omega⟩) + (∑ k : Fin b, f ⟨a + k.val, by omega⟩)
        + ∑ k : Fin c, f ⟨a + b + k.val, by omega⟩ := by
  subst hn
  rw [Fin.sum_univ_add, Fin.sum_univ_add]
  rfl

/-- Entry (p, q) of an [a, K] × [K, b] product into the zero accumulator is the sum over the contracted position
    of the row's entry times the column's entry. -/
theorem matmul_zero_ix2 {a K b : ℕ} {φ₁ φ₂ : FTy}
    (d : DotDims (⟨2, ![a, K]⟩ : Shape) (⟨2, ![K, b]⟩ : Shape) (⟨2, ![a, b]⟩ : Shape))
    (hr : d.contr.rank = 1) (hs : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (prec : Option ContractPrecision)
    (lhs : FVec Ideal (⟨2, ![a, K]⟩ : Shape) φ₁) (rhs : FVec Ideal (⟨2, ![K, b]⟩ : Shape) φ₂) (p : Fin a) (q : Fin b) :
    FloatOps.matmul d prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun ax => Fin.ext (by
    match ax with
    | ⟨0, _⟩ => exact hl0 _ _
    | ⟨1, _⟩ => exact (d.lhsIdx_val_of_single hlc _ _).trans hk)
  have er : d.rhsIdx (ix2 p q) ((contrEquiv1 d K hr hs).symm k) = ix2 k q := funext fun ax => Fin.ext (by
    match ax with
    | ⟨0, _⟩ => exact (d.rhsIdx_val_of_single hrc _ _).trans hk
    | ⟨1, _⟩ => exact hr1 _ _)
  rw [el, er]

end Idealize.ShloMosaic.PlainDot

end
-- ==== Proof.LibDenseTransposed.lean ====
/-
  A dense layer whose weight matrix is stored row by row and transposed in front of the product, and the two layout
  operations that carry a matrix along a new last axis — each read at an index written by its coordinates.

  * A cast of an [a, b] array to [a, b, 1] reads, at (i, j, u), the operand at (i, j): a trailing unit axis does not
    change the row-major position.
  * A broadcast of an [a, b, 1] array to [a, b, c] reads, at (i, j, r), the operand at (i, j, 0): the coordinate on
    the last axis is forgotten, the other two are kept.
  * The product of an [a, K] matrix x with the TRANSPOSE of an [n, K] matrix w, accumulated into the zero array,
    has at (p, q) the value  ∑ k < K, x (p, k) · w (q, k)  on the extended reals: the transposed matrix reads, at
    (k, q), the matrix at (q, k).
  * Such a product plus a bias row [1, n] broadcast over the a rows has at (p, q) that sum plus the bias's entry q.

  The two matrix facts hold for any record of dimension numbers of a plain matrix product, and take what says so
  as six facts, each decided by unfolding for a literal record: the contraction has one axis, of extent K; it
  contracts the left operand's axis 1 with the right operand's axis 0; the output's row is the left operand's row
  and the output's column is the right operand's column.
-/
import proofs.«151959_j1752346657530_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseTransposed

open Idealize.ShloMosaic Idealize.ShloMosaic.ValueIdx

/-! ## A matrix carried along a new last axis -/

section Layout
variable {α : Type}

/-- An [a, b] array cast to [a, b, 1] reads, at (i, j, u), the operand at (i, j): both have row-major position
    i · b + j. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast to [a, b, c] reads, at (i, j, r), the operand at (i, j, 0): the last coordinate
    is forgotten, the first two are kept. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (r : Fin c) :
    broadcastTo ⟨3, ![a, b, c]⟩ v h (ix3 i j r) = v (ix3 i j (0 : Fin 1)) := by
  refine broadcastTo_apply v h (ix3 i j r) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Layout

/-! ## A product with a transposed right operand, and a dense layer -/

/-- Entry (p, q) of the product of an [a, K] matrix with the TRANSPOSE of a [b, K] matrix, accumulated into zero,
    is  ∑ k < K, lhs (p, k) · w (q, k): the left matrix at (p, k) times the untransposed right matrix at (q, k).
    The facts taken: the contraction has one axis (hr) of extent K (hs); it contracts the left operand's axis 1
    (hlc) with the right operand's axis 0 (hrc); the output's row is the left operand's row (hl0) and the output's
    column is the right operand's column (hr1). -/
theorem matmul_transposed_zero_ix2 {a K b : ℕ} {φ₁ φ₂ : FTy}
    (d : DotDims (⟨2, ![a, K]⟩ : Shape) (⟨2, ![K, b]⟩ : Shape) (⟨2, ![a, b]⟩ : Shape))
    (hr : d.contr.rank = 1) (hs : d.contr.size ⟨0, by omega⟩ = K)
    (hlc : d.lhsContracting = [1]) (hrc : d.rhsContracting = [0])
    (hl0 : ∀ (j : (⟨2, ![a, b]⟩ : Shape).Idx) (q : d.contr.Idx), (d.lhsIdx j q 0).val = (j 0).val)
    (hr1 : ∀ (j : (⟨2, ![a, b]⟩ : Shape).Idx) (q : d.contr.Idx), (d.rhsIdx j q 1).val = (j 1).val)
    (prec : Option ContractPrecision)
    (lhs : FVec Ideal (⟨2, ![a, K]⟩ : Shape) φ₁) (w : FVec Ideal (⟨2, ![b, K]⟩ : Shape) φ₂)
    (ht : (⟨2, ![b, K]⟩ : Shape).Transposes [1, 0] ⟨2, ![K, b]⟩) (p : Fin a) (q : Fin b) :
    FloatOps.matmul d prec lhs (transpose ⟨2, ![K, b]⟩ [1, 0] w ht) (constant (⟨2, ![a, b]⟩ : Shape) .f32 0x00000000#32) (ix2 p q)
      = ∑ k : Fin K, lhs (ix2 p k) * w (ix2 q k) := by
  rw [PlainDot.matmul_zero_ix2 d hr hs hlc hrc hl0 hr1]
  exact Finset.sum_congr rfl fun k _ => congrArg (lhs (ix2 p k) * ·) (transpose_ix2_apply w ht k q)

/-- One dense layer, x · wᵀ + bias with the bias row [1, n] added to every row, read at (p, q):
    (∑ k < K, x (p, k) · w (q, k)) + bias (0, q). It takes the same six facts about the dimension numbers as the
    product with a transposed right operand. -/
theorem dense_apply {a K n : ℕ}
    (d : DotDims (⟨2, ![a, K]⟩ : Shape) (⟨2, ![K, n]⟩ : Shape) (⟨2, ![a, n]⟩ : Shape))
    (hr : d.contr.rank = 1) (hs : d.contr.size ⟨0, by omega⟩ = K)
    (hlc : d.lhsContracting = [1]) (hrc : d.rhsContracting = [0])
    (hl0 : ∀ (j : (⟨2, ![a, n]⟩ : Shape).Idx) (q : d.contr.Idx), (d.lhsIdx j q 0).val = (j 0).val)
    (hr1 : ∀ (j : (⟨2, ![a, n]⟩ : Shape).Idx) (q : d.contr.Idx), (d.rhsIdx j q 1).val = (j 1).val)
    (x : FVec Ideal (⟨2, ![a, K]⟩ : Shape) .f32) (w : FVec Ideal (⟨2, ![n, K]⟩ : Shape) .f32)
    (ht : (⟨2, ![n, K]⟩ : Shape).Transposes [1, 0] ⟨2, ![K, n]⟩)
    (bias : FVec Ideal (⟨2, ![1, n]⟩ : Shape) .f32) (hb : (⟨2, ![1, n]⟩ : Shape).Broadcasts ⟨2, ![a, n]⟩)
    (p : Fin a) (q : Fin n) :
    addf (matmul d none x (transpose ⟨2, ![K, n]⟩ [1, 0] w ht) (constant (F := Ideal) (⟨2, ![a, n]⟩ : Shape) .f32 0x00000000#32))
        (broadcastTo ⟨2, ![a, n]⟩ bias hb) (ix2 p q)
      = (∑ k : Fin K, x (ix2 p k) * w (ix2 q k)) + bias (ix2 (0 : Fin 1) q) :=
  (addf_apply _ _ _).trans (congrArg₂ (· + ·)
    (matmul_transposed_zero_ix2 d hr hs hlc hrc hl0 hr1 none x w ht p q)
    (broadcastTo_1b_ab_apply bias hb p q))

end Idealize.ShloMosaic.DenseTransposed

end
-- ==== Proof.Payloads.lean ====
/-
  The values the two kernel bodies store, read at one index.

  Each body of the program computes what it stores as a pure term over the blocks it has loaded. Here every such
  term is read at a single index, written by its coordinates, as an expression on the extended reals:

  * the pooling body starts its accumulator at zero, adds to it the sum of a block of the input along the last
    axis, and at the end multiplies it by a constant (the reciprocal of the pooled length);
  * the scaling body computes the gate  logistic (max (s · W1ᵀ + b1, 0) · W2ᵀ + b2)  — two matrix products with
    the weight matrices transposed, a bias row added to every row, a maximum with zero in between — and multiplies
    a block of the input by the gate's entry of its row and column, the same for every position of the last axis.

  The operations that are not lane by lane — a cast that adds a trailing unit axis, a broadcast along a trailing unit
  axis, and a matrix product whose right operand is a transposed matrix — are read by the general lemmas of the
  module on dense layers with a transposed weight matrix.
-/
import proofs.«151959_j1752346657530_2_alg».proof.Proof.Gen.KernelIdeal.Skeleton
import proofs.«151959_j1752346657530_2_alg».proof.Proof.LibDenseTransposed
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen

/-! ## The operations that are not lane by lane

The cast that adds a trailing unit axis, the broadcast along it, the product with a transposed right operand and the
dense layer built from it are general facts, stated and proved in their own module; they are used here under the
same names. -/

export Idealize.ShloMosaic.DenseTransposed (shapeCast_ab_ab1_apply broadcastTo_ab1_abc_apply matmul_transposed_zero_ix2 dense_apply)

/-! ## The pooling body -/

/-- The accumulator's first value is zero everywhere. -/
theorem pool_init_apply (p : Fin 8) (q : Fin 128) : k0_pay1 (F := Ideal) (ix2 p q) = 0 := by
  unfold k0_pay1
  rw [shapeCast_self]
  exact Ideal.ofBits_zero_f32

/-- One step adds to the accumulator at (p, q) the sum of the input block's row (p, q, ·). -/
theorem pool_step_apply (s : Vec Ideal S8x128 .f32) (x : Vec Ideal S8x128x1024 .f32) (p : Fin 8) (q : Fin 128) :
    k0_pay2 s x (ix2 p q) = s (ix2 p q) + ∑ r : Fin 1024, x (ix3 p q r) := by
  unfold k0_pay2
  rw [shapeCast_self]
  refine congrArg (s (ix2 p q) + ·) ?_
  refine (Ideal.multiReduction_add_single (φ := .f32) x 0x00000000#32 reduces_S8x128x1024_S8x128 (.inl rfl) rfl (ix2 p q)).trans ?_
  refine Finset.sum_congr rfl fun r _ => congrArg x (funext fun ax => ?_)
  match ax with
  | ⟨0, _⟩ => rfl
  | ⟨1, _⟩ => rfl
  | ⟨2, _⟩ => rfl

/-- The stored mean is the accumulator times the constant the body spells. -/
theorem pool_out_apply (s : Vec Ideal S8x128 .f32) (p : Fin 8) (q : Fin 128) :
    k0_pay3 s (ix2 p q) = s (ix2 p q) * Ideal.ofBits .f32 0x39800000#32 := by
  unfold k0_pay3
  rfl

/-! ## The scaling body -/

/-- A block of the input times the gate: at (p, q, r) the input's entry times the gate's entry (p, q), whatever r. -/
theorem scale_apply (g : Vec Ideal S8x128 .f32) (x : Vec Ideal S8x128x2048 .f32) (p : Fin 8) (q : Fin 128) (r : Fin 2048) :
    k1_pay2 g x (ix3 p q r) = x (ix3 p q r) * g (ix2 p q) := by
  unfold k1_pay2
  refine (mulf_apply _ _ _).trans (congrArg (x (ix3 p q r) * ·) ?_)
  exact (broadcastTo_ab1_abc_apply _ _ p q r).trans (shapeCast_ab_ab1_apply g _ p q 0)

/-! ### Where the two matrix products read their operands

Both products contract the left operand's columns with the right operand's rows; the output's row goes to the left
operand and the output's column to the right one. Each fact is read off the dimension numbers by unfolding. -/

theorem dotHidden_lhs_row (j : S32x256.Idx) (q : dot_S32x512_S512x256_S32x256_1_0_0_1_n_n.contr.Idx) :
    (dot_S32x512_S512x256_S32x256_1_0_0_1_n_n.lhsIdx j q 0).val = (j 0).val := by
  unfold DotDims.lhsIdx
  rw [dif_neg (show ¬(0 : Fin S32x512.rank) ∈ dot_S32x512_S512x256_S32x256_1_0_0_1_n_n.lhsBatch by decide),
    dif_pos (show (0 : Fin S32x512.rank) ∈ dot_S32x512_S512x256_S32x256_1_0_0_1_n_n.lhsNonContracting by decide)]
  rfl

theorem dotHidden_rhs_col (j : S32x256.Idx) (q : dot_S32x512_S512x256_S32x256_1_0_0_1_n_n.contr.Idx) :
    (dot_S32x512_S512x256_S32x256_1_0_0_1_n_n.rhsIdx j q 1).val = (j 1).val := by
  unfold DotDims.rhsIdx
  rw [dif_neg (show ¬(1 : Fin S512x256.rank) ∈ dot_S32x512_S512x256_S32x256_1_0_0_1_n_n.rhsBatch by decide),
    dif_pos (show (1 : Fin S512x256.rank) ∈ dot_S32x512_S512x256_S32x256_1_0_0_1_n_n.rhsNonContracting by decide)]
  rfl

theorem dotGate_lhs_row (j : S32x512.Idx) (q : dot_S32x256_S256x512_S32x512_1_0_0_1_n_n.contr.Idx) :
    (dot_S32x256_S256x512_S32x512_1_0_0_1_n_n.lhsIdx j q 0).val = (j 0).val := by
  unfold DotDims.lhsIdx
  rw [dif_neg (show ¬(0 : Fin S32x256.rank) ∈ dot_S32x256_S256x512_S32x512_1_0_0_1_n_n.lhsBatch by decide),
    dif_pos (show (0 : Fin S32x256.rank) ∈ dot_S32x256_S256x512_S32x512_1_0_0_1_n_n.lhsNonContracting by decide)]
  rfl

theorem dotGate_rhs_col (j : S32x512.Idx) (q : dot_S32x256_S256x512_S32x512_1_0_0_1_n_n.contr.Idx) :
    (dot_S32x256_S256x512_S32x512_1_0_0_1_n_n.rhsIdx j q 1).val = (j 1).val := by
  unfold DotDims.rhsIdx
  rw [dif_neg (show ¬(1 : Fin S256x512.rank) ∈ dot_S32x256_S256x512_S32x512_1_0_0_1_n_n.rhsBatch by decide),
    dif_pos (show (1 : Fin S256x512.rank) ∈ dot_S32x256_S256x512_S32x512_1_0_0_1_n_n.rhsNonContracting by decide)]
  rfl

/-- The gate at (b, c): the logistic function of the second dense layer applied to the first one's outputs cut
    off below at zero. -/
theorem gate_apply (sq : Vec Ideal S32x512 .f32) (w1 : Vec Ideal S256x512 .f32) (b1 : Vec Ideal S1x256 .f32)
    (w2 : Vec Ideal S512x256 .f32) (b2 : Vec Ideal S1x512 .f32) (b : Fin 32) (c : Fin 512) :
    k1_pay1 sq w1 b1 w2 b2 (ix2 b c)
      = Ideal.logistic ((∑ k : Fin 256, max ((∑ j : Fin 512, sq (ix2 b j) * w1 (ix2 k j)) + b1 (ix2 0 k)) (Ideal.ofBits .f32 0x00000000#32) * w2 (ix2 c k)) + b2 (ix2 0 c)) := by
  unfold k1_pay1
  simp only [shapeCast_self]
  refine (congrArg Ideal.logistic (dense_apply dot_S32x256_S256x512_S32x512_1_0_0_1_n_n rfl rfl rfl rfl
    dotGate_lhs_row dotGate_rhs_col _ w2 _ b2 _ b c)).trans ?_
  refine congrArg (fun t => Ideal.logistic (t + b2 (ix2 0 c))) (Finset.sum_congr rfl fun k _ =>
    congrArg (· * w2 (ix2 c k)) ?_)
  exact (maximumf_apply _ _ _).trans (congrArg (max · (Ideal.ofBits .f32 0x00000000#32))
    (dense_apply dot_S32x512_S512x256_S32x256_1_0_0_1_n_n rfl rfl rfl rfl
      dotHidden_lhs_row dotHidden_rhs_col sq w1 _ b1 _ b k))

end Cert.KernelIdeal.Payload

end
-- ==== Proof.Spec.lean ====
/-
  The function both programs compute, index by index over the extended reals.

  For an input `x` of shape [32, 512, 4096], weights `W1` [256, 512], `W2` [512, 256] and biases `b1` [256], `b2` [512]:
    squeeze b j = (∑ l, x (b, j, l)) · 2⁻¹²                     -- the mean over the last axis (4096 = 2¹² entries)
    hidden  b k = max (∑ j, squeeze b j · W1 (k, j) + b1 k) 0    -- first dense layer (weight stored output-major), rectified
    gate    b c = 1 / (1 + exp (−(∑ k, hidden b k · W2 (c, k) + b2 c)))
    scaled (b, c, l) = x (b, c, l) · gate b c
  The two float literals are kept as the words the programs spell (`0x39800000` is 2⁻¹², `0x00000000` is 0): the same
  word on both sides of an equation is never evaluated.
-/
import Idealize.ShloMosaic.PureOps.Ideal
import Idealize.ShloMosaic.Lib.ValueIdx

noncomputable section

namespace Cert.SqueezeExcite

open Idealize.ShloMosaic Idealize.ShloMosaic.ValueIdx

/-- The shapes of the five arguments. -/
abbrev SX : Shape := ⟨3, ![32, 512, 4096]⟩
abbrev SW1 : Shape := ⟨2, ![256, 512]⟩
abbrev SB1 : Shape := ⟨1, ![256]⟩
abbrev SW2 : Shape := ⟨2, ![512, 256]⟩
abbrev SB2 : Shape := ⟨1, ![512]⟩

variable (x : SX.Idx → EReal) (W1 : SW1.Idx → EReal) (b1 : SB1.Idx → EReal) (W2 : SW2.Idx → EReal) (b2 : SB2.Idx → EReal)

/-- The sum of a row of `x` along its last axis. -/
def rowSum (b : Fin 32) (j : Fin 512) : EReal := ∑ l : Fin 4096, x (ix3 b j l)

/-- The mean of that row: the sum times 2⁻¹² (the word `0x39800000`). -/
def squeeze (b : Fin 32) (j : Fin 512) : EReal := rowSum x b j * Ideal.ofBits .f32 0x39800000#32

/-- The first dense layer on the means, rectified against zero (the word `0x00000000`). -/
def hidden (b : Fin 32) (k : Fin 256) : EReal :=
  max ((∑ j : Fin 512, squeeze x b j * W1 (ix2 k j)) + b1 (ix1 k)) (Ideal.ofBits .f32 0x00000000#32)

/-- The second dense layer through the logistic function: the gate of channel `c` of batch entry `b`. -/
def gate (b : Fin 32) (c : Fin 512) : EReal :=
  Ideal.logistic ((∑ k : Fin 256, hidden x W1 b1 b k * W2 (ix2 c k)) + b2 (ix1 c))

/-- The result: every entry of `x` times the gate of its batch entry and channel. -/
def scaled : SX.Idx → EReal := fun i => x i * gate x W1 b1 W2 b2 (i 0) (i 1)

theorem scaled_ix3 (b : Fin 32) (c : Fin 512) (l : Fin 4096) :
    scaled x W1 b1 W2 b2 (ix3 b c l) = x (ix3 b c l) * gate x W1 b1 W2 b2 b c := rfl

end Cert.SqueezeExcite

end
-- ==== Proof.PoolValue.lean ====
/-
  The pooling region's output array holds the specification's row means.

  The region walks a grid of 4 × 4 × 4 points; point number n stands at band n / 16 of eight rows, band n / 4 mod 4
  of 128 columns, and tile n mod 4 of 1024 positions of the last axis. Its scratch accumulator is reset at the first
  tile of a row band and column band and adds, at every tile, the sums of that tile's rows; so after point n it
  holds, at (p, q), the sum over the tiles 0, …, n mod 4 of the sums of row (8 · (n / 16) + p, 128 · (n / 4 mod 4) + q)
  over each tile. At the last tile the four tiles' sums are, re-indexed, the sum of the whole row of 4096 = 4 · 1024
  entries — addition of extended reals is associative, and nothing is assumed finite —, and the block written back
  is that sum times the word 2⁻¹²: the specification's mean of that row. The sixteen blocks written back tile the
  [32, 512] array, so the array ends holding the mean of every row.
-/
import proofs.«151959_j1752346657530_2_alg».proof.Proof.PoolData
import proofs.«151959_j1752346657530_2_alg».proof.Proof.Payloads
import proofs.«151959_j1752346657530_2_alg».proof.Proof.Spec

noncomputable section

namespace Cert.KernelIdeal.PoolValue

open Cert.KernelIdeal Cert.KernelIdeal.Gen Cert.KernelIdeal.Hand Cert.KernelIdeal.Payload
open Idealize.ShloMosaic Idealize.ShloMosaic.TcCoe Idealize.ShloMosaic.ValueIdx Idealize.SL.Sem
open Idealize.ShloMosaic.Pipeline (Dat)
open Cert.SqueezeExcite

/-! ## Where a block's entry sits in its array -/

/-- Row `p` of the band of eight rows numbered `k` modulo 4. -/
def rowOf (k : ℕ) (p : Fin 8) : Fin 32 := ⟨8 * (k % 4) + p.val, by have := p.isLt; omega⟩
/-- Column `q` of the band of 128 columns numbered `k` modulo 4. -/
def colOf (k : ℕ) (q : Fin 128) : Fin 512 := ⟨128 * (k % 4) + q.val, by have := q.isLt; omega⟩
/-- Position `r` of the tile of 1024 positions numbered `k` modulo 4. -/
def posOf (k : ℕ) (r : Fin 1024) : Fin 4096 := ⟨1024 * (k % 4) + r.val, by have := r.isLt; omega⟩

/-! ## A row is its four tiles -/

/-- The sum of row (b, j) of `x` over tile `k`. -/
def tile (x : SX.Idx → EReal) (b : Fin 32) (j : Fin 512) (k : ℕ) : EReal := ∑ r : Fin 1024, x (ix3 b j (posOf k r))

/-- The sum of a row of 4096 entries is the sum of its four tiles' sums: position l = 1024 · k + r. -/
theorem rowSum_eq_tiles (x : SX.Idx → EReal) (b : Fin 32) (j : Fin 512) :
    rowSum x b j = ∑ k ∈ Finset.range 4, tile x b j k := by
  unfold rowSum tile
  have h1 : ∑ l : Fin 4096, x (ix3 b j l) = ∑ kr : Fin 4 × Fin 1024, x (ix3 b j (finProdFinEquiv kr)) :=
    (Equiv.sum_comp (finProdFinEquiv (m := 4) (n := 1024)) (fun l : Fin 4096 => x (ix3 b j l))).symm
  rw [h1, Fintype.sum_prod_type, Finset.sum_range]
  refine Finset.sum_congr rfl fun k _ => Finset.sum_congr rfl fun r _ => congrArg (fun l => x (ix3 b j l)) (Fin.ext ?_)
  show r.val + 1024 * k.val = 1024 * (k.val % 4) + r.val
  have := k.isLt; omega

section Region

variable (V : (c : Dev nD) → (b : Ref sig .tc) → Buf (Elt Ideal) ((c : Thread nD τ).loc b)) (c : Dev nD)

/-! ## The grid's index maps, decided once over its 64 points -/

/-- The input's block index at point `t` is (t / 16, t / 4 mod 4, t mod 4); the output's is (t / 16, t / 4 mod 4). -/
theorem idx_facts : ∀ t : Fin cfg0.N,
    win0_0.index t (0 : Fin 3) = t.val / 16 % 4 ∧ win0_0.index t (1 : Fin 3) = t.val / 4 % 4
    ∧ win0_0.index t (2 : Fin 3) = t.val % 4
    ∧ win0_1.index t (0 : Fin 2) = t.val / 16 % 4 ∧ win0_1.index t (1 : Fin 2) = t.val / 4 % 4 :=
  (by decide +kernel : ∀ t : Fin grid0.N, _)

/-! ## The input's block, read at an entry -/

/-- Entry (p, q, r) of the input's block at point `t` is the input at its row band's row p, its column band's
    column q, and its tile's position r. -/
theorem iblk_apply (t : Fin cfg0.N) (p : Fin 8) (q : Fin 128) (r : Fin 1024) :
    iblk0 V c 0 t (ix3 p q r)
      = V c main_arg0 (ix3 (rowOf (t.val / 16) p) (colOf (t.val / 4) q) (posOf (t.val % 4) r)) := by
  obtain ⟨e0, e1, e2, -, -⟩ := idx_facts t
  unfold iblk0
  rw [View.read_apply]
  show V c main_arg0 (((cfg0.win 0).blk t).view.emb (ix3 p q r)) = _
  refine congrArg (V c main_arg0) (funext fun a => Fin.ext ?_)
  match a with
  | ⟨0, _⟩ => show win0_0.index t (0 : Fin 3) * 8 + 1 * p.val = 8 * (t.val / 16 % 4) + p.val; omega
  | ⟨1, _⟩ => show win0_0.index t (1 : Fin 3) * 128 + 1 * q.val = 128 * (t.val / 4 % 4) + q.val; omega
  | ⟨2, _⟩ => show win0_0.index t (2 : Fin 3) * 1024 + 1 * r.val = 1024 * (t.val % 4 % 4) + r.val; omega

/-- One step of the body at point `t`: the accumulator's entry (p, q) plus the input's row summed over the point's
    tile. -/
theorem step_read (s : Vec Ideal S8x128 .f32) (t : Fin cfg0.N) (p : Fin 8) (q : Fin 128) :
    k0_pay2 s (iblk0 V c 0 t) (ix2 p q)
      = s (ix2 p q) + tile (V c main_arg0) (rowOf (t.val / 16) p) (colOf (t.val / 4) q) (t.val % 4) :=
  (pool_step_apply s (iblk0 V c 0 t) p q).trans
    (congrArg (s (ix2 p q) + ·) (Finset.sum_congr rfl fun r _ => iblk_apply V c t p q r))

/-! ## The accumulator after every point -/

/-- After point `n` the accumulator holds, at (p, q), the sums of that row over the tiles met so far in the point's
    group of four. -/
theorem acc_eq (p : Fin 8) (q : Fin 128) : ∀ (n : ℕ) (hn : n < cfg0.N),
    acc0 V c n hn (ix2 p q)
      = ∑ k ∈ Finset.range (n % 4 + 1), tile (V c main_arg0) (rowOf (n / 16) p) (colOf (n / 4) q) k
  | 0, hn => by
    refine (step_read V c (k0_pay1 (F := Ideal)) ⟨0, hn⟩ p q).trans ?_
    rw [pool_init_apply, zero_add]
    exact (Finset.sum_range_one _).symm
  | n + 1, hn => by
    by_cases h : (n + 1) % 4 = 0
    · refine (congrFun (if_pos h : acc0 V c (n + 1) hn = _) (ix2 p q)).trans ?_
      refine (step_read V c (k0_pay1 (F := Ideal)) ⟨n + 1, hn⟩ p q).trans ?_
      rw [pool_init_apply, zero_add]
      show tile (V c main_arg0) (rowOf ((n + 1) / 16) p) (colOf ((n + 1) / 4) q) ((n + 1) % 4)
        = ∑ k ∈ Finset.range ((n + 1) % 4 + 1), tile (V c main_arg0) (rowOf ((n + 1) / 16) p) (colOf ((n + 1) / 4) q) k
      rw [h]
      exact (Finset.sum_range_one _).symm
    · refine (congrFun (if_neg h : acc0 V c (n + 1) hn = _) (ix2 p q)).trans ?_
      refine (step_read V c (acc0 V c n (Nat.lt_of_succ_lt hn)) ⟨n + 1, hn⟩ p q).trans ?_
      rw [acc_eq p q n (Nat.lt_of_succ_lt hn)]
      have e16 : (n + 1) / 16 = n / 16 := by omega
      have e4 : (n + 1) / 4 = n / 4 := by omega
      have em : (n + 1) % 4 = n % 4 + 1 := by omega
      show (∑ k ∈ Finset.range (n % 4 + 1), tile (V c main_arg0) (rowOf (n / 16) p) (colOf (n / 4) q) k)
          + tile (V c main_arg0) (rowOf ((n + 1) / 16) p) (colOf ((n + 1) / 4) q) ((n + 1) % 4)
        = ∑ k ∈ Finset.range ((n + 1) % 4 + 1), tile (V c main_arg0) (rowOf ((n + 1) / 16) p) (colOf ((n + 1) / 4) q) k
      rw [e16, e4, em]
      exact (Finset.sum_range_succ _ _).symm

/-! ## What a group's last point writes back -/

/-- At the last tile of a group the stored block holds, at (p, q), the specification's mean of its row. -/
theorem mean_at (t : Fin cfg0.N) (ht : t.val % 4 = 3) (p : Fin 8) (q : Fin 128) :
    k0_pay3 (acc0 V c t.val t.isLt) (ix2 p q)
      = squeeze (V c main_arg0) (rowOf (t.val / 16) p) (colOf (t.val / 4) q) := by
  rw [pool_out_apply, acc_eq V c p q t.val t.isLt, ht]
  unfold squeeze
  rw [rowSum_eq_tiles]

/-- Entry (p, q) of the output's block at point `t` sits at its row band's row p and its column band's column q. -/
theorem emb_out (t : Fin cfg0.N) (p : Fin 8) (q : Fin 128) :
    ((cfg0.win 1).blk t).view.emb (ix2 p q) = ix2 (rowOf (t.val / 16) p) (colOf (t.val / 4) q) := by
  obtain ⟨-, -, -, e3, e4⟩ := idx_facts t
  refine funext fun a => Fin.ext ?_
  match a with
  | ⟨0, _⟩ => show win0_1.index t (0 : Fin 2) * 8 + 1 * p.val = 8 * (t.val / 16 % 4) + p.val; omega
  | ⟨1, _⟩ => show win0_1.index t (1 : Fin 2) * 128 + 1 * q.val = 128 * (t.val / 4 % 4) + q.val; omega

/-- The specification's means as one array. -/
abbrev means : S32x512.Idx → EReal := fun i => squeeze (V c main_arg0) (i 0) (i 1)

/-- What a writing point writes back is its block of the array of means. -/
theorem flushed_eq (t : Fin cfg0.N) (hf : (cfg0.win 1).flush t = true) :
    (dat0 (F := Ideal) V c).flushed 1 t = ((cfg0.win 1).blk t).view.read (Elt Ideal) (means V c) := by
  have ht : t.val % 4 = 3 := (flush0_1 t).mp hf
  show (cfg0.win 1).cut (grid0.coords t) ((dat0 (F := Ideal) V c).after 1 t) = _
  rw [after0_1]
  funext y
  obtain ⟨p, q, rfl⟩ : ∃ (p : Fin 8) (q : Fin 128), y = ix2 p q := ⟨y 0, y 1, eq_ix2 y⟩
  show k0_pay3 (acc0 V c t.val t.isLt) (ix2 p q) = means V c (((cfg0.win 1).blk t).view.emb (ix2 p q))
  rw [emb_out, mean_at V c t ht]

/-! ## The blocks written back tile the array -/

/-- Row i₀ and column i₁ lie in the block of the point 16 · (i₀ / 8) + 4 · (i₁ / 128) + 3, a writing point. -/
theorem cover (i : S32x512.Idx) :
    ∃ t : Fin cfg0.N, (cfg0.win 1).flush t = true ∧ i ∈ ((cfg0.win 1).blk t).view.set := by
  have h0 : (i 0).val < 32 := (i 0).isLt
  have h1 : (i 1).val < 512 := (i 1).isLt
  have hN : cfg0.N = 64 := N_0
  obtain ⟨t, tv⟩ : ∃ t : Fin cfg0.N, t.val = 16 * ((i 0).val / 8) + 4 * ((i 1).val / 128) + 3 :=
    ⟨⟨16 * ((i 0).val / 8) + 4 * ((i 1).val / 128) + 3, by omega⟩, rfl⟩
  obtain ⟨-, -, -, e3, e4⟩ := idx_facts t
  refine ⟨t, (flush0_1 t).mpr (by omega), ?_⟩
  show i ∈ ((View.whole main_v0).slice (win0_1.rect t)).set
  rw [View.set_slice_whole, Rect.mem_set_unit]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 128 ≤ (i 1).val ∧ (i 1).val < win0_1.index t (1 : Fin 2) * 128 + 128; omega

/-! ## The output array after the region -/

/-- After the region the output array holds the specification's mean of every row. -/
theorem pooled : (dat0 (F := Ideal) V c).arrAt 1 cfg0.N = means V c :=
  (dat0 (F := Ideal) V c).arrAt_eq_of_cover 1 (means V c) (flushed_eq V c) (cover)

/-- Read at row b and column j. -/
theorem pooled_apply (b : Fin 32) (j : Fin 512) :
    (dat0 (F := Ideal) V c).arrAt 1 cfg0.N (ix2 b j) = Cert.SqueezeExcite.squeeze (V c main_arg0) b j :=
  congrFun (pooled V c) (ix2 b j)

end Region

end Cert.KernelIdeal.PoolValue

end
-- ==== Proof.ScaleValue.lean ====
/-
  The scaling region's output array, index by index.

  At every grid point the region writes back one block of the output: the input's block at the same place, each
  entry times the gate of its batch entry and channel. The gate matrix is computed, at every point anew, from the
  five arrays the region holds whole (the pooled means, the two weight matrices, the two bias rows), so it is the
  same matrix at every point, and the block a point writes is the restriction to its place of ONE function of the
  region's input arrays:

      out (b, ch, l) = x (b, ch, l) · gate (b, ch).

  The output's blocks tile the array, so after the region the array holds that function everywhere.
-/
import proofs.«151959_j1752346657530_2_alg».proof.Proof.ScaleData
import proofs.«151959_j1752346657530_2_alg».proof.Proof.Payloads
import Idealize.ShloMosaic.Lib.Pipeline.Value
import Idealize.ShloMosaic.Lib.ValueIdx

noncomputable section

namespace Cert.KernelIdeal.ScaleValue

open Cert.KernelIdeal Cert.KernelIdeal.Gen Cert.KernelIdeal.Hand Cert.KernelIdeal.Payload
open Idealize.ShloMosaic Idealize.ShloMosaic.TcCoe Idealize.SL.Sem Idealize.ShloMosaic.ValueIdx
open Idealize.ShloMosaic.Pipeline (Dat)

/-! ## The function the output array ends holding -/

/-- The gate of batch entry b and channel ch, from the region's five whole-array inputs: the logistic function of
    the second dense layer applied to the first one's outputs cut off below at zero. -/
def gateOf (sq : S32x512.Idx → EReal) (w1 : S256x512.Idx → EReal) (b1 : S1x256.Idx → EReal) (w2 : S512x256.Idx → EReal)
    (b2 : S1x512.Idx → EReal) (b : Fin 32) (ch : Fin 512) : EReal :=
  Ideal.logistic ((∑ k : Fin 256, max ((∑ j : Fin 512, sq (ix2 b j) * w1 (ix2 k j)) + b1 (ix2 0 k)) (Ideal.ofBits .f32 0x00000000#32) * w2 (ix2 ch k)) + b2 (ix2 0 ch))

/-- The gate matrix the body computes, at (b, ch), is that gate. -/
theorem gateMatrix_apply (sq : Vec Ideal S32x512 .f32) (w1 : Vec Ideal S256x512 .f32) (b1 : Vec Ideal S1x256 .f32)
    (w2 : Vec Ideal S512x256 .f32) (b2 : Vec Ideal S1x512 .f32) (b : Fin 32) (ch : Fin 512) :
    k1_pay1 sq w1 b1 w2 b2 (ix2 b ch) = gateOf sq w1 b1 w2 b2 b ch :=
  gate_apply sq w1 b1 w2 b2 b ch

/-- What one point leaves in its output block, over variables: the input block at (p, q, r) times the gate matrix at
    the row and column the point's 8 × 128 rectangle of it starts at, plus (p, q). -/
theorem point_apply (x0 : Vec Ideal S8x128x2048 .f32) (gm : Vec Ideal S32x512 .f32)
    (off : Fin 2 → Nat) (inb : ∀ a, off a + S8x128.size a ≤ S32x512.size a)
    (p : Fin 8) (q : Fin 128) (r : Fin 2048) (B : Fin 32) (C : Fin 512)
    (hB : B.val = off 0 + p.val) (hC : C.val = off 1 + q.val) :
    k1_pay2 (View.ld gm (Rect.unit (s := S32x512) off S8x128.size inb)) x0 (ix3 p q r) = x0 (ix3 p q r) * gm (ix2 B C) := by
  refine (scale_apply _ x0 p q r).trans (congrArg (x0 (ix3 p q r) * ·) ?_)
  show gm ((Rect.unit (s := S32x512) off S8x128.size inb).emb (ix2 p q)) = gm (ix2 B C)
  refine congrArg gm (funext fun a => Fin.ext ?_)
  match a with
  | ⟨0, _⟩ => show off 0 + 1 * p.val = B.val; omega
  | ⟨1, _⟩ => show off 1 + 1 * q.val = C.val; omega

/-! ## The index maps, decided once over the grid -/

theorem hz2 : (![0, 0] : Fin 2 → Nat) = fun _ => 0 := funext fun a => by fin_cases a <;> rfl

/-- The input's window moves with the output's; the gate rectangle starts at the output block's first row and
    column; and the output's block indices stay in their ranges. -/
theorem index_facts : ∀ t : Fin cfg1.N,
    win1_0.index t (0 : Fin 3) = win1_6.index t (0 : Fin 3)
    ∧ win1_0.index t (1 : Fin 3) = win1_6.index t (1 : Fin 3)
    ∧ win1_0.index t (2 : Fin 3) = win1_6.index t (2 : Fin 3)
    ∧ k1_off1 (grid1.coords t) (0 : Fin 2) = win1_6.index t (0 : Fin 3) * 8
    ∧ k1_off1 (grid1.coords t) (1 : Fin 2) = win1_6.index t (1 : Fin 3) * 128
    ∧ win1_6.index t (0 : Fin 3) ≤ 3 ∧ win1_6.index t (1 : Fin 3) ≤ 3 ∧ win1_6.index t (2 : Fin 3) ≤ 1 :=
  (by decide +kernel : ∀ t : Fin grid1.N, _)

/-- Every block of the output is some point's. -/
theorem index_onto : ∀ (q0 : Fin 4) (q1 : Fin 4) (q2 : Fin 2), ∃ t : Fin cfg1.N, win1_6.index t = ![q0.val, q1.val, q2.val] :=
  (by decide +kernel : ∀ (q0 : Fin 4) (q1 : Fin 4) (q2 : Fin 2), ∃ t : Fin grid1.N, win1_6.index t = ![q0.val, q1.val, q2.val])

/-- The function the output array ends holding: the input times the gate of its batch entry and channel. -/
def scaledOf (x : S32x512x4096.Idx → EReal) (sq : S32x512.Idx → EReal) (w1 : S256x512.Idx → EReal)
    (b1 : S1x256.Idx → EReal) (w2 : S512x256.Idx → EReal) (b2 : S1x512.Idx → EReal) : S32x512x4096.Idx → EReal :=
  fun i => x i * gateOf sq w1 b1 w2 b2 (i 0) (i 1)

/-- At an index written by its coordinates. -/
theorem scaledOf_apply (x : S32x512x4096.Idx → EReal) (sq : S32x512.Idx → EReal) (w1 : S256x512.Idx → EReal)
    (b1 : S1x256.Idx → EReal) (w2 : S512x256.Idx → EReal) (b2 : S1x512.Idx → EReal) (b : Fin 32) (ch : Fin 512) (l : Fin 4096) :
    scaledOf x sq w1 b1 w2 b2 (ix3 b ch l) = x (ix3 b ch l) * gateOf sq w1 b1 w2 b2 b ch := rfl

/-- The five windows that are one block, the whole array, sit at block index zero at every point. -/
theorem whole_index_facts : ∀ t : Fin cfg1.N,
    (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0) :=
  (by decide +kernel : ∀ t : Fin grid1.N, _)

/-! ## The blocks of the region's windows -/

section Region

variable (V : (c : Dev nD) → (b : Ref sig .tc) → Buf (Elt Ideal) ((c : Thread nD τ).loc b))

/-- The window of the pooled means is the whole array at every point. -/
theorem iblk1_1 (c : Dev nD) (t : Fin cfg1.N) : iblk1 V c 1 t = V c main_v0 := by
  obtain ⟨⟨h0, h1⟩, -⟩ := whole_index_facts t
  unfold iblk1
  funext y
  show V c main_v0 (((cfg1.win 1).blk t).view.emb y) = V c main_v0 y
  refine congrArg (V c main_v0) (funext fun a => Fin.ext ?_)
  match a with
  | ⟨0, _⟩ => show win1_1.index t (0 : Fin 2) * 32 + 1 * (y 0).val = (y 0).val; omega
  | ⟨1, _⟩ => show win1_1.index t (1 : Fin 2) * 512 + 1 * (y 1).val = (y 1).val; omega

/-- So is the window of the first weight matrix, -/
theorem iblk1_2 (c : Dev nD) (t : Fin cfg1.N) : iblk1 V c 2 t = V c main_arg1 := by
  obtain ⟨-, ⟨h0, h1⟩, -⟩ := whole_index_facts t
  unfold iblk1
  funext y
  show V c main_arg1 (((cfg1.win 2).blk t).view.emb y) = V c main_arg1 y
  refine congrArg (V c main_arg1) (funext fun a => Fin.ext ?_)
  match a with
  | ⟨0, _⟩ => show win1_2.index t (0 : Fin 2) * 256 + 1 * (y 0).val = (y 0).val; omega
  | ⟨1, _⟩ => show win1_2.index t (1 : Fin 2) * 512 + 1 * (y 1).val = (y 1).val; omega

/-- of the first bias row, -/
theorem iblk1_3 (c : Dev nD) (t : Fin cfg1.N) : iblk1 V c 3 t = V c main_v1 := by
  obtain ⟨-, -, ⟨h0, h1⟩, -⟩ := whole_index_facts t
  unfold iblk1
  funext y
  show V c main_v1 (((cfg1.win 3).blk t).view.emb y) = V c main_v1 y
  refine congrArg (V c main_v1) (funext fun a => Fin.ext ?_)
  match a with
  | ⟨0, _⟩ => show win1_3.index t (0 : Fin 2) * 1 + 1 * (y 0).val = (y 0).val; omega
  | ⟨1, _⟩ => show win1_3.index t (1 : Fin 2) * 256 + 1 * (y 1).val = (y 1).val; omega

/-- of the second weight matrix, -/
theorem iblk1_4 (c : Dev nD) (t : Fin cfg1.N) : iblk1 V c 4 t = V c main_arg3 := by
  obtain ⟨-, -, -, ⟨h0, h1⟩, -⟩ := whole_index_facts t
  unfold iblk1
  funext y
  show V c main_arg3 (((cfg1.win 4).blk t).view.emb y) = V c main_arg3 y
  refine congrArg (V c main_arg3) (funext fun a => Fin.ext ?_)
  match a with
  | ⟨0, _⟩ => show win1_4.index t (0 : Fin 2) * 512 + 1 * (y 0).val = (y 0).val; omega
  | ⟨1, _⟩ => show win1_4.index t (1 : Fin 2) * 256 + 1 * (y 1).val = (y 1).val; omega

/-- and of the second bias row. -/
theorem iblk1_5 (c : Dev nD) (t : Fin cfg1.N) : iblk1 V c 5 t = V c main_v2 := by
  obtain ⟨-, -, -, -, h0, h1⟩ := whole_index_facts t
  unfold iblk1
  funext y
  show V c main_v2 (((cfg1.win 5).blk t).view.emb y) = V c main_v2 y
  refine congrArg (V c main_v2) (funext fun a => Fin.ext ?_)
  match a with
  | ⟨0, _⟩ => show win1_5.index t (0 : Fin 2) * 1 + 1 * (y 0).val = (y 0).val; omega
  | ⟨1, _⟩ => show win1_5.index t (1 : Fin 2) * 512 + 1 * (y 1).val = (y 1).val; omega

/-- The input's block at point t, at (p, q, r), is the array at the block's place plus (p, q, r). -/
theorem iblk1_0_apply (c : Dev nD) (t : Fin cfg1.N) (p : Fin 8) (q : Fin 128) (r : Fin 2048)
    (B : Fin 32) (C : Fin 512) (L : Fin 4096)
    (hB : B.val = win1_6.index t (0 : Fin 3) * 8 + p.val) (hC : C.val = win1_6.index t (1 : Fin 3) * 128 + q.val)
    (hL : L.val = win1_6.index t (2 : Fin 3) * 2048 + r.val) :
    (iblk1 V c 0 t : Vec Ideal S8x128x2048 .f32) (ix3 p q r) = (V c main_arg0 : S32x512x4096.Idx → EReal) (ix3 B C L) := by
  obtain ⟨e0, e1, e2, -⟩ := index_facts t
  unfold iblk1
  show V c main_arg0 (((cfg1.win 0).blk t).view.emb (ix3 p q r)) = V c main_arg0 (ix3 B C L)
  refine congrArg (V c main_arg0) (funext fun a => Fin.ext ?_)
  match a with
  | ⟨0, _⟩ => show win1_0.index t (0 : Fin 3) * 8 + 1 * p.val = B.val; omega
  | ⟨1, _⟩ => show win1_0.index t (1 : Fin 3) * 128 + 1 * q.val = C.val; omega
  | ⟨2, _⟩ => show win1_0.index t (2 : Fin 3) * 2048 + 1 * r.val = L.val; omega

/-- Where the output's block at point t puts its entry (p, q, r). -/
theorem blk6_emb (t : Fin cfg1.N) (p : Fin 8) (q : Fin 128) (r : Fin 2048)
    (B : Fin 32) (C : Fin 512) (L : Fin 4096)
    (hB : B.val = win1_6.index t (0 : Fin 3) * 8 + p.val) (hC : C.val = win1_6.index t (1 : Fin 3) * 128 + q.val)
    (hL : L.val = win1_6.index t (2 : Fin 3) * 2048 + r.val) :
    (((cfg1.win 6).blk t).view.emb (ix3 p q r) : S32x512x4096.Idx) = ix3 B C L := by
  refine funext fun a => Fin.ext ?_
  match a with
  | ⟨0, _⟩ => show win1_6.index t (0 : Fin 3) * 8 + 1 * p.val = B.val; omega
  | ⟨1, _⟩ => show win1_6.index t (1 : Fin 3) * 128 + 1 * q.val = C.val; omega
  | ⟨2, _⟩ => show win1_6.index t (2 : Fin 3) * 2048 + 1 * r.val = L.val; omega

/-! ## Every point writes its block of one function -/

/-- The one function of the region's input arrays, as the region finds them. -/
abbrev scaledAt (c : Dev nD) : S32x512x4096.Idx → EReal :=
  scaledOf (V c main_arg0) (V c main_v0) (V c main_arg1) (V c main_v1) (V c main_arg3) (V c main_v2)

/-- What point t writes back, at (p, q, r), is that function where the point's block puts (p, q, r). -/
theorem flushed_apply (c : Dev nD) (t : Fin cfg1.N) (p : Fin 8) (q : Fin 128) (r : Fin 2048) :
    out1 V c t (ix3 p q r) = scaledAt V c (((cfg1.win 6).blk t).view.emb (ix3 p q r)) := by
  obtain ⟨e0, e1, e2, o0, o1, l0, l1, l2⟩ := index_facts t
  have hB : win1_6.index t (0 : Fin 3) * 8 + p.val < 32 := by have := p.isLt; omega
  have hC : win1_6.index t (1 : Fin 3) * 128 + q.val < 512 := by have := q.isLt; omega
  have hL : win1_6.index t (2 : Fin 3) * 2048 + r.val < 4096 := by have := r.isLt; omega
  rw [blk6_emb t p q r ⟨_, hB⟩ ⟨_, hC⟩ ⟨_, hL⟩ rfl rfl rfl]
  unfold out1
  rw [iblk1_1, iblk1_2, iblk1_3, iblk1_4, iblk1_5]
  refine (point_apply (iblk1 V c 0 t) _ (k1_off1 (grid1.coords t)) (k1_off1_inb (grid1.coords t)) p q r ⟨_, hB⟩ ⟨_, hC⟩
    (by show _ = k1_off1 (grid1.coords t) (0 : Fin 2) + p.val; rw [o0])
    (by show _ = k1_off1 (grid1.coords t) (1 : Fin 2) + q.val; rw [o1])).trans ?_
  exact congrArg₂ (· * ·) (iblk1_0_apply V c t p q r ⟨_, hB⟩ ⟨_, hC⟩ ⟨_, hL⟩ rfl rfl rfl)
    (gateMatrix_apply (V c main_v0) (V c main_arg1) (V c main_v1) (V c main_arg3) (V c main_v2) ⟨_, hB⟩ ⟨_, hC⟩)

/-- So what point t writes back is block t of that function. -/
theorem flushed_eq (c : Dev nD) (t : Fin cfg1.N) :
    (dat1 (F := Ideal) V c).flushed 6 t = ((cfg1.win 6).blk t).view.read (Elt Ideal) (scaledAt V c) := by
  show (cfg1.win 6).cut (grid1.coords t) ((dat1 V c).after 6 t) = _
  rw [after1_6]
  funext y
  obtain ⟨p, q, r, rfl⟩ : ∃ (p : Fin 8) (q : Fin 128) (r : Fin 2048), y = ix3 p q r := ⟨y 0, y 1, y 2, eq_ix3 y⟩
  exact flushed_apply V c t p q r

/-! ## The blocks tile the array -/

/-- An index of the array is in point t's block iff each coordinate is in the block's range on its axis. -/
theorem mem_blk (t : Fin cfg1.N) (i : S32x512x4096.Idx) :
    i ∈ ((cfg1.win 6).blk t).view.set ↔ ∀ a : Fin 3, win1_6.index t a * S8x128x2048.size a ≤ (i a).val
      ∧ (i a).val < win1_6.index t a * S8x128x2048.size a + S8x128x2048.size a := by
  show i ∈ ((View.whole main_v3).slice (win1_6.rect t)).set ↔ _
  rw [View.set_slice_whole, Rect.mem_set_unit]
  exact Iff.rfl

/-- Every index of the array is in some point's block: the one whose block indices are the coordinates' quotients by
    the block's extents. -/
theorem covered (i : S32x512x4096.Idx) :
    ∃ t : Fin cfg1.N, (cfg1.win 6).flush t = true ∧ i ∈ ((cfg1.win 6).blk t).view.set := by
  have hi0 : (i 0).val < 32 := (i 0).isLt
  have hi1 : (i 1).val < 512 := (i 1).isLt
  have hi2 : (i 2).val < 4096 := (i 2).isLt
  obtain ⟨t, ht⟩ := index_onto ⟨(i 0).val / 8, by omega⟩ ⟨(i 1).val / 128, by omega⟩ ⟨(i 2).val / 2048, by omega⟩
  have q0 : win1_6.index t (0 : Fin 3) = (i 0).val / 8 := congrFun ht 0
  have q1 : win1_6.index t (1 : Fin 3) = (i 1).val / 128 := congrFun ht 1
  have q2 : win1_6.index t (2 : Fin 3) = (i 2).val / 2048 := congrFun ht 2
  refine ⟨t, flush1_6 t, ?_⟩
  rw [mem_blk]
  intro a
  match a with
  | ⟨0, _⟩ => show win1_6.index t (0 : Fin 3) * 8 ≤ (i 0).val ∧ (i 0).val < win1_6.index t (0 : Fin 3) * 8 + 8; omega
  | ⟨1, _⟩ => show win1_6.index t (1 : Fin 3) * 128 ≤ (i 1).val ∧ (i 1).val < win1_6.index t (1 : Fin 3) * 128 + 128; omega
  | ⟨2, _⟩ => show win1_6.index t (2 : Fin 3) * 2048 ≤ (i 2).val ∧ (i 2).val < win1_6.index t (2 : Fin 3) * 2048 + 2048; omega

/-! ## The array after the region -/

/-- The output array after the region is the input times the gates, everywhere. -/
theorem scaled_array (c : Dev nD) : (dat1 (F := Ideal) V c).arrAt 6 cfg1.N = scaledAt V c :=
  (dat1 (F := Ideal) V c).arrAt_eq_of_cover 6 (scaledAt V c) (fun t _ => flushed_eq V c t) covered

/-- At batch entry b, channel ch and position l: the input's entry times the gate of (b, ch). -/
theorem scaled_apply (c : Dev nD) (b : Fin 32) (ch : Fin 512) (l : Fin 4096) :
    (dat1 (F := Ideal) V c).arrAt 6 cfg1.N (ix3 b ch l)
      = HMul.hMul (α := EReal) (V c main_arg0 (ix3 b ch l))
          (gateOf (V c main_v0) (V c main_arg1) (V c main_v1) (V c main_arg3) (V c main_v2) b ch) := by
  rw [scaled_array]
  rfl

end Region

end Cert.KernelIdeal.ScaleValue

end
-- ==== Proof.Result.lean ====
/-
  The idealized kernel program's result array is the specification.

  The scaling region's write-backs leave, at (b, ch, l), the input there times the gate computed from what the region was
  entered with; the input and the weight matrices it was entered with are the launch contents, the matrix of means is what
  the pooling region left — the row sums times 2⁻¹² —, and each bias row's entry of column `k` is the bias vector's `k`-th.
  Substituting, the gate is the specification's gate, term by term.
-/
import proofs.«151959_j1752346657530_2_alg».proof.Proof.Entry
import proofs.«151959_j1752346657530_2_alg».proof.Proof.PoolValue
import proofs.«151959_j1752346657530_2_alg».proof.Proof.ScaleValue
import proofs.«151959_j1752346657530_2_alg».proof.Proof.Spec

noncomputable section

namespace Cert.KernelIdeal.Result

open Cert.KernelIdeal Cert.KernelIdeal.Gen Cert.KernelIdeal.Hand Cert.KernelIdeal.Entry
open Idealize.ShloMosaic Idealize.ShloMosaic.TcCoe Idealize.ShloMosaic.ValueIdx Idealize.SL.Sem
open Cert.SqueezeExcite

variable (m : (ℓ : Loc nD τ sig) → Buf (Elt Ideal) ℓ) (c : Dev nD)

/-- The matrix of means the scaling region is entered with, entry by entry. -/
theorem means_apply (b : Fin 32) (j : Fin 512) :
    Ve1 m c main_v0 (ix2 b j) = squeeze (m ((c : Thread nD τ).loc main_arg0)) b j := by
  rw [means_eq m c]
  exact Cert.KernelIdeal.PoolValue.pooled_apply (Ve0 m) c b j

/-- The gate the scaling region computes is the specification's. -/
theorem gate_eq (b : Fin 32) (ch : Fin 512) :
    Cert.KernelIdeal.ScaleValue.gateOf (Ve1 m c main_v0) (Ve1 m c main_arg1) (Ve1 m c main_v1) (Ve1 m c main_arg3) (Ve1 m c main_v2) b ch
      = gate (m ((c : Thread nD τ).loc main_arg0)) (m ((c : Thread nD τ).loc main_arg1)) (m ((c : Thread nD τ).loc main_arg2))
          (m ((c : Thread nD τ).loc main_arg3)) (m ((c : Thread nD τ).loc main_arg4)) b ch := by
  unfold Cert.KernelIdeal.ScaleValue.gateOf Cert.SqueezeExcite.gate Cert.SqueezeExcite.hidden
  refine congrArg Ideal.logistic ?_
  refine congrArg₂ (· + ·) (Finset.sum_congr rfl fun k _ => ?_) (bias2_apply m c 0 ch)
  refine congrArg₂ (· * ·) (congrArg₂ max (congrArg₂ (· + ·) (Finset.sum_congr rfl fun j _ => ?_) (bias1_apply m c 0 k)) rfl)
    (congrFun (weight2_eq m c) (ix2 ch k))
  exact congrArg₂ (· * ·) (means_apply m c b j) (congrFun (weight1_eq m c) (ix2 k j))

/-- THE RESULT: after the run the result array holds the specification of the five launch arrays. -/
theorem result_eq :
    W3 m c (Proc.devRef .tc main_v3)
      = scaled (m ((c : Thread nD τ).loc main_arg0)) (m ((c : Thread nD τ).loc main_arg1)) (m ((c : Thread nD τ).loc main_arg2))
          (m ((c : Thread nD τ).loc main_arg3)) (m ((c : Thread nD τ).loc main_arg4)) := by
  rw [W3_main_v3]
  funext i
  obtain ⟨b, ch, l, rfl⟩ : ∃ (b : Fin 32) (ch : Fin 512) (l : Fin 4096), i = ix3 b ch l := ⟨i 0, i 1, i 2, eq_ix3 i⟩
  rw [Cert.KernelIdeal.ScaleValue.scaled_apply (Ve1 m) c b ch l, gate_eq m c b ch, input_eq m c]
  rfl

end Cert.KernelIdeal.Result

end
-- ==== Proof.Consts.lean ====
/-
  The float words whose values the value bridge needs, as the extended reals they denote.

  A 32-bit float word with sign 0, exponent field e and fraction 0 denotes 2^(e − 127):
    0x45800000  (e = 139)  is 2¹²  = 4096,   the number of entries of a row, by which the mean divides;
    0x39800000  (e = 115)  is 2⁻¹² = 1/4096, the same mean written as a product;
    0x3F800000  (e = 127)  is 2⁰   = 1,      the two ones of 1 / (1 + exp (−z)).
  The zero word 0x00000000 is read by the library's `Ideal.ofBits_zero_f32`.
  The words are unfolded here, once, so that every other module reads these equations and unfolds none.
-/
import Idealize.ShloMosaic.PureOps.Ideal

noncomputable section

namespace Cert.Consts

open Idealize.ShloMosaic

/-- The word `0x45800000` denotes the real 4096 = 2¹². -/
theorem ofBits_4096 : Ideal.ofBits .f32 0x45800000#32 = ((4096 : ℝ) : EReal) := by
  simp [Ideal.ofBits, Ideal.ieee, -EReal.coe_mul]; norm_num

/-- The word `0x39800000` denotes the real 1/4096 = 2⁻¹². -/
theorem ofBits_inv_4096 : Ideal.ofBits .f32 0x39800000#32 = ((1 / 4096 : ℝ) : EReal) := by
  simp [Ideal.ofBits, Ideal.ieee, -EReal.coe_mul]; norm_num

/-- The word `0x3F800000` denotes 1. -/
theorem ofBits_one : Ideal.ofBits .f32 0x3F800000#32 = 1 := by
  simp [Ideal.ofBits, Ideal.ieee, -EReal.coe_mul]; norm_num

end Cert.Consts

end
-- ==== Proof.RefIsSpec.lean ====
/-
  The reference program computes the specification.

  The reference's run ends with its result array at one closed term of the five argument arrays: twenty-nine array
  operations composed. Read one entry at a time, that term is the squeeze-and-excitation gate of the specification:

    * the sum of a row of `x` along its last axis starts from the zero word, which denotes 0, and the quotient of
      that sum by the word 4096 is, on every extended real, its product with 1/4096 = 2⁻¹² — the mean of the row;
    * a contraction of a matrix of means with a transposed weight is, at (b, k), the sum over j of
      mean (b, j) · W1 (k, j): the transpose reads the weight output-major; the bias is added along the rows, and
      the maximum with the zero word rectifies;
    * the second contraction is the same with W2 and b2, and 1 / (1 + exp (−z)), once both words 1.0 are read as 1,
      is the logistic function of z by its definition;
    * two broadcasts carry the gate at (b, c) to every position l of the row, where it multiplies x (b, c, l).

  Each stage is proved at one index, from the index equations that say which entry of its operand each array
  operation reads. No array is ever compared with another as a whole.
-/
import proofs.«151959_j1752346657530_2_alg».proof.Proof.Spec
import proofs.«151959_j1752346657530_2_alg».proof.Proof.Consts
import proofs.«151959_j1752346657530_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx
open Cert.SqueezeExcite

variable (x : FVec Ideal S32x512x4096 .f32) (W1 : FVec Ideal S256x512 .f32) (b1 : FVec Ideal S256 .f32)
  (W2 : FVec Ideal S512x256 .f32) (b2 : FVec Ideal S512 .f32)

/-! ## Which entry each array operation reads -/

/-- The row sum at (b, j) reads `x` at (b, j, l). -/
theorem idx_v0 (b : Fin 32) (j : Fin 512) (l : Fin 4096) : idx_main_v0 (ix2 b j) l = ix3 b j l :=
  funext fun a => Fin.ext (by match a with | ⟨0, _⟩ => rfl | ⟨1, _⟩ => rfl | ⟨2, _⟩ => rfl)

/-- The first contraction at (b, k) reads its left operand at (b, j) … -/
theorem lidx_v4 (b : Fin 32) (k : Fin 256) (j : Fin 512) : lidx_main_v4 (ix2 b k) j = ix2 b j :=
  funext fun a => Fin.ext (by match a with | ⟨0, _⟩ => rfl | ⟨1, _⟩ => rfl)

/-- … and its right operand at (j, k) … -/
theorem ridx_v4 (b : Fin 32) (k : Fin 256) (j : Fin 512) : ridx_main_v4 (ix2 b k) j = ix2 j k :=
  funext fun a => Fin.ext (by match a with | ⟨0, _⟩ => rfl | ⟨1, _⟩ => rfl)

/-- … which, being a transpose, is the first weight at (k, j). -/
theorem idx_v3 (j : Fin 512) (k : Fin 256) : idx_main_v3 (ix2 j k) = ix2 k j :=
  funext fun a => Fin.ext (by match a with | ⟨0, _⟩ => rfl | ⟨1, _⟩ => rfl)

/-- The first bias, broadcast along the rows, is read at k. -/
theorem idx_v6 (b : Fin 32) (k : Fin 256) : idx_main_v5 (idx_main_v6 (ix2 b k)) = ix1 k :=
  funext fun a => Fin.ext (by match a with | ⟨0, _⟩ => rfl)

/-- The second contraction at (b, c) reads its left operand at (b, k) … -/
theorem lidx_v10 (b : Fin 32) (c : Fin 512) (k : Fin 256) : lidx_main_v10 (ix2 b c) k = ix2 b k :=
  funext fun a => Fin.ext (by match a with | ⟨0, _⟩ => rfl | ⟨1, _⟩ => rfl)

/-- … and its right operand at (k, c) … -/
theorem ridx_v10 (b : Fin 32) (c : Fin 512) (k : Fin 256) : ridx_main_v10 (ix2 b c) k = ix2 k c :=
  funext fun a => Fin.ext (by match a with | ⟨0, _⟩ => rfl | ⟨1, _⟩ => rfl)

/-- … which, being a transpose, is the second weight at (c, k). -/
theorem idx_v9 (k : Fin 256) (c : Fin 512) : idx_main_v9 (ix2 k c) = ix2 c k :=
  funext fun a => Fin.ext (by match a with | ⟨0, _⟩ => rfl | ⟨1, _⟩ => rfl)

/-- The second bias, broadcast along the rows, is read at c. -/
theorem idx_v12 (b : Fin 32) (c : Fin 512) : idx_main_v11 (idx_main_v12 (ix2 b c)) = ix1 c :=
  funext fun a => Fin.ext (by match a with | ⟨0, _⟩ => rfl)

/-- The gate, broadcast along the last axis, is read at (b, c) from every (b, c, l). -/
theorem idx_v21 (b : Fin 32) (c : Fin 512) (l : Fin 4096) : idx_main_v20 (idx_main_v21 (ix3 b c l)) = ix2 b c :=
  funext fun a => Fin.ext (by match a with | ⟨0, _⟩ => rfl | ⟨1, _⟩ => rfl)

/-! ## The four stages -/

/-- The reference's row mean is the specification's: the sum from the zero word is the sum, and the quotient by
    4096 is the product with the word 2⁻¹². -/
theorem squeeze_eq (b : Fin 32) (j : Fin 512) : val_main_v2 (F := Ideal) x (ix2 b j) = squeeze x b j := by
  rw [val_main_v2_apply, val_main_v0_apply, val_main_v1_apply, val_main_cst_apply, val_main_cst_0_apply]
  simp only [Ideal.hostDivf_def, Ideal.ofBits_def, Ideal.ofBits_zero_f32, zero_add, Cert.Consts.ofBits_4096,
    Ideal.div_coe (by norm_num : (4096 : ℝ) ≠ 0), idx_v0]
  rw [← Cert.Consts.ofBits_inv_4096]
  rfl

/-- The reference's first dense layer, rectified, is the specification's. -/
theorem hidden_eq (b : Fin 32) (k : Fin 256) : val_main_v8 (F := Ideal) x W1 b1 (ix2 b k) = hidden x W1 b1 b k := by
  rw [val_main_v8_apply, val_main_v7_apply, val_main_v4_apply, val_main_v6_apply, val_main_v5_apply,
    val_main_call0_v0_apply, val_main_call0_cst_apply]
  simp only [lidx_v4, ridx_v4, val_main_v3_apply, idx_v3, idx_v6, squeeze_eq, Ideal.maximumf_def, Ideal.addf_def,
    Ideal.ofBits_def]
  rfl

/-- The reference's second dense layer through 1 / (1 + exp (−z)) is the specification's gate. -/
theorem gate_eq (b : Fin 32) (c : Fin 512) :
    val_main_v19 (F := Ideal) x W1 b1 W2 b2 (ix2 b c) = gate x W1 b1 W2 b2 b c := by
  rw [val_main_v19_apply, val_main_v18_apply, val_main_cst_2_apply, val_main_v17_apply, val_main_v16_apply,
    val_main_cst_1_apply, val_main_v15_apply, val_main_v14_apply, val_main_v13_apply, val_main_v10_apply,
    val_main_v12_apply, val_main_v11_apply]
  simp only [lidx_v10, ridx_v10, val_main_v9_apply, idx_v9, idx_v12, hidden_eq, Ideal.hostDivf_def, Ideal.addf_def,
    Ideal.hostUnary_exp_def, Ideal.hostNegf_def, Ideal.negf_def, Ideal.ofBits_def, Cert.Consts.ofBits_one]
  rfl

/-- The reference's last stage, as a function of the five arrays, is the specification. -/
theorem val_is_scaled : val_main_v22 (F := Ideal) x W1 b1 W2 b2 = scaled x W1 b1 W2 b2 := by
  funext i
  obtain ⟨b, c, l, rfl⟩ : ∃ (b : Fin 32) (c : Fin 512) (l : Fin 4096), i = ix3 b c l := ⟨i 0, i 1, i 2, eq_ix3 i⟩
  rw [val_main_v22_apply, val_main_v21_apply, val_main_v20_apply, idx_v21, gate_eq, scaled_ix3, Ideal.mulf_def]

/-- The closed term at which the reference's run leaves its result array is the specification of the five
    argument arrays. -/
theorem ref_is_scaled :
    mulf x (broadcastInDim S32x512x4096 ![0, 1, 2] bcast_S32x512x1_S32x512x4096_0_1_2 (broadcastInDim S32x512x1 ![0, 1] bcast_S32x512_S32x512x1_0_1 (Host.divf (F := Ideal) (broadcastInDim S32x512 ![] bcast_S_S32x512 (constant (F := Ideal) S_ .f32 0x3F800000#32)) (addf (broadcastInDim S32x512 ![] bcast_S_S32x512 (constant (F := Ideal) S_ .f32 0x3F800000#32)) (Host.exp (F := Ideal) (Host.negf (F := Ideal) (addf (Host.dotGeneral (F := Ideal) dot_S32x256_S256x512_S32x512_1_0_0_1_n_n none (maximumf (addf (Host.dotGeneral (F := Ideal) dot_S32x512_S512x256_S32x256_1_0_0_1_n_n none (Host.divf (F := Ideal) (Host.reduceAdd (F := Ideal) x (constant (F := Ideal) S_ .f32 0x00000000#32) reducesTo_S32x512x4096_S32x512_d2 h_S_) (broadcastInDim S32x512 ![] bcast_S_S32x512 (constant (F := Ideal) S_ .f32 0x45800000#32))) (transpose S512x256 [1, 0] W1 transposes_S256x512_S512x256_1_0)) (broadcastInDim S32x256 ![0, 1] bcast_S1x256_S32x256_0_1 (broadcastInDim S1x256 ![1] bcast_S256_S1x256_1 b1))) (broadcastInDim S32x256 ![] bcast_S_S32x256 (constant (F := Ideal) S_ .f32 0x00000000#32))) (transpose S256x512 [1, 0] W2 transposes_S512x256_S256x512_1_0)) (broadcastInDim S32x512 ![0, 1] bcast_S1x512_S32x512_0_1 (broadcastInDim S1x512 ![1] bcast_S512_S1x512_1 b2)))))))))
      = scaled x W1 b1 W2 b2 :=
  (val_main_v22_eq (F := Ideal) x W1 b1 W2 b2).trans (val_is_scaled x W1 b1 W2 b2)

end Cert.ReferenceIdeal.RefValue

end
-- ==== Proof.lean ====
/-
  The certificate: a squeeze-and-excitation gate in two kernel regions against its plain array reference.

  The kernel pools the input's last axis (4096 entries per row, summed tile by tile into an accumulator and scaled by
  2⁻¹²), then, in a second region, recomputes at every grid point the whole gate matrix — a dense layer, a rectifier, a
  second dense layer, the logistic function — and multiplies the input by it, block by block. The reference computes
  the mean by a division by 4096, the same two dense layers through transposes and `dot_general`, the logistic function
  as `1 / (1 + exp (−·))`, and one whole-array product.

  * The three frames: each program runs to the end and leaves its arguments as launched (Proof/Frames.lean, over the
    runs of Proof/Run.lean and its word-level copy, and the reference's generated run).
  * The idealization rewrote nothing, so `preserves` states nothing.
  * At the extended reals both programs end at ONE function of the five argument arrays, the specification of
    Proof/Spec.lean: the kernel by Proof/Result.lean (the sum over four tiles of 1024 is the sum over 4096 — addition of
    extended reals is associative and commutative, no finiteness is needed —; every block the second region writes is
    a restriction of the one whole-array function), the reference by Proof/RefIsSpec.lean (the quotient by 4096 is the
    product with 2⁻¹² on every extended real; `1 / (1 + exp (−z))` is the logistic function by definition).
-/
import proofs.«151959_j1752346657530_2_alg».proof.Defs
import proofs.«151959_j1752346657530_2_alg».proof.Proof.Gen.Kernel
import proofs.«151959_j1752346657530_2_alg».proof.Proof.Gen.Kernel.Skeleton
import proofs.«151959_j1752346657530_2_alg».proof.Proof.Gen.Kernel.Launch
import proofs.«151959_j1752346657530_2_alg».proof.Proof.Gen.Kernel.Regions
import proofs.«151959_j1752346657530_2_alg».proof.Proof.Gen.Kernel.Points
import proofs.«151959_j1752346657530_2_alg».proof.Proof.Gen.KernelIdeal
import proofs.«151959_j1752346657530_2_alg».proof.Proof.Gen.KernelIdeal.Skeleton
import proofs.«151959_j1752346657530_2_alg».proof.Proof.Gen.KernelIdeal.Launch
import proofs.«151959_j1752346657530_2_alg».proof.Proof.Gen.KernelIdeal.Regions
import proofs.«151959_j1752346657530_2_alg».proof.Proof.Gen.KernelIdeal.Points
import proofs.«151959_j1752346657530_2_alg».proof.Proof.Gen.ReferenceIdeal
import proofs.«151959_j1752346657530_2_alg».proof.Proof.Gen.ReferenceIdeal.Run
import proofs.«151959_j1752346657530_2_alg».proof.Proof.Gen.ReferenceIdeal.Read
import proofs.«151959_j1752346657530_2_alg».proof.Proof.Gen.Pre_finite_inputs
import proofs.«151959_j1752346657530_2_alg».proof.Proof.Frames
import proofs.«151959_j1752346657530_2_alg».proof.Proof.Result
import proofs.«151959_j1752346657530_2_alg».proof.Proof.RefIsSpec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Proof.Frames.frame_Kernel Bits m ρ
theorem frame_kernelIdeal : Cert.frame_KernelIdeal := fun m ρ _ => Cert.Proof.Frames.frame_KernelIdeal Ideal m ρ
theorem frame_referenceIdeal : Cert.frame_ReferenceIdeal := fun m ρ _ => Cert.Proof.Frames.frame_ReferenceIdeal m ρ

/-- The ideal pass rewrote no operation: nothing to preserve. -/
theorem preserves : Cert.preserves_Kernel_KernelIdeal := trivial

/-- From memories agreeing on the arguments both programs end with the result at the specification of those arguments. -/
theorem algebraic : Cert.algebraic_KernelIdeal_ReferenceIdeal := by
  intro m ρ m' ρ' _ hagree
  refine ⟨fun c => Cert.SqueezeExcite.scaled
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run (Cert.KernelIdeal.defs (F := Ideal)) _ _).mono (fun r h c => ⟨
      (h c _ (Cert.KernelIdeal.Hand.mem_uc Cert.KernelIdeal.main_v3 (by decide))).trans (Cert.KernelIdeal.Result.result_eq m c),
      (h c _ (Cert.KernelIdeal.Hand.mem_uc Cert.KernelIdeal.main_arg0 (by decide))).trans (Cert.KernelIdeal.Hand.W3_main_arg0 m c),
      (h c _ (Cert.KernelIdeal.Hand.mem_uc Cert.KernelIdeal.main_arg1 (by decide))).trans (Cert.KernelIdeal.Hand.W3_main_arg1 m c),
      (h c _ (Cert.KernelIdeal.Hand.mem_uc Cert.KernelIdeal.main_arg2 (by decide))).trans (Cert.KernelIdeal.Hand.W3_main_arg2 m c),
      (h c _ (Cert.KernelIdeal.Hand.mem_uc Cert.KernelIdeal.main_arg3 (by decide))).trans (Cert.KernelIdeal.Hand.W3_main_arg3 m c),
      (h c _ (Cert.KernelIdeal.Hand.mem_uc Cert.KernelIdeal.main_arg4 (by decide))).trans (Cert.KernelIdeal.Hand.W3_main_arg4 m c)⟩)
      (Cert.KernelIdeal.Hand.run_all m ρ)
  · refine (θ_run (Cert.ReferenceIdeal.defs (F := Ideal)) _ _).mono (fun _ h c => ⟨(h c).1.trans ?_, (h c).2⟩)
      (Cert.ReferenceIdeal.Value.run (F := Ideal) m' ρ')
    rw [Cert.ReferenceIdeal.RefValue.ref_is_scaled, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
